-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x10 : Shape := ⟨2, ![131072, 10]⟩
abbrev S_ : Shape := ⟨0, ![]⟩

class Facts : Prop where
  bcast_S_S131072x10 : S_.BroadcastsInDim S131072x10 (![] : Fin 0 → Fin S131072x10.rank)
  reducesTo_S131072x10_S_d0_1 : S131072x10.ReducesTo [0, 1] S_
  h_S_ : 0 < S_.numel

variable [Facts]

def fn {F : FTy → Type} [FloatOps F] (main_arg0 : FVec F S131072x10 .f32) : IVec S_ 1 :=
  let main_v0 : FVec F S131072x10 .f32 := Host.absf main_arg0
  let main_cst : FVec F S_ .f32 := constant S_ .f32 0x7F800000#32
  let main_v1 : FVec F S131072x10 .f32 := broadcastInDim S131072x10 ![] bcast_S_S131072x10 main_cst
  let main_v2 : IVec S131072x10 1 := cmpf .olt main_v0 main_v1
  let main_c : IVec S_ 1 := constantI S_ 1 1#1
  let main_v3 : IVec S_ 1 := (fun x v => Host.reduce IntOp.andi x v reducesTo_S131072x10_S_d0_1 h_S_) main_v2 main_c
  main_v3
-- ==== Kernel.lean ====
abbrev S131072x10 : Shape := ⟨2, ![131072, 10]⟩
abbrev S10x131072 : Shape := ⟨2, ![10, 131072]⟩
abbrev S2x32x32 : Shape := ⟨3, ![2, 32, 32]⟩
abbrev S10x8192 : Shape := ⟨2, ![10, 8192]⟩
abbrev S1x32x32 : Shape := ⟨3, ![1, 32, 32]⟩
abbrev S32x32 : Shape := ⟨2, ![32, 32]⟩
abbrev S1x8192 : Shape := ⟨2, ![1, 8192]⟩
abbrev S2x8192 : Shape := ⟨2, ![2, 8192]⟩
abbrev S4x8192 : Shape := ⟨2, ![4, 8192]⟩
abbrev S8x8192 : Shape := ⟨2, ![8, 8192]⟩
abbrev S16x8192 : Shape := ⟨2, ![16, 8192]⟩
abbrev S32x8192 : Shape := ⟨2, ![32, 8192]⟩
abbrev S_ : Shape := ⟨0, ![]⟩

abbrev nBuf : Space → Nat
  | .hbm => 21
  | .vmem => 5
  | .smem => 0
  | _ => 0

abbrev bufTy : (tb : Table) → Fin (tcTables nBuf tb) → BufTy
  | .hbm, ⟨0, _⟩ => ⟨S131072x10, .f32⟩
  | .hbm, ⟨1, _⟩ => ⟨S10x131072, .f32⟩
  | .hbm, ⟨2, _⟩ => ⟨S2x32x32, .f32⟩
  | .hbm, ⟨3, _⟩ => ⟨S_, .f32⟩
  | .hbm, ⟨4, _⟩ => ⟨S32x32, .f32⟩
  | .hbm, ⟨5, _⟩ => ⟨S_, .f32⟩
  | .hbm, ⟨6, _⟩ => ⟨S32x32, .f32⟩
  | .hbm, ⟨7, _⟩ => ⟨S32x32, .f32⟩
  | .hbm, ⟨8, _⟩ => ⟨S_, .f32⟩
  | .hbm, ⟨9, _⟩ => ⟨S_, .f32⟩
  | .hbm, ⟨10, _⟩ => ⟨S32x32, .f32⟩
  | .hbm, ⟨11, _⟩ => ⟨S32x32, .f32⟩
  | .hbm, ⟨12, _⟩ => ⟨S32x32, .f32⟩
  | .hbm, ⟨13, _⟩ => ⟨S_, .f32⟩
  | .hbm, ⟨14, _⟩ => ⟨S32x32, .f32⟩
  | .hbm, ⟨15, _⟩ => ⟨S32x32, .f32⟩
  | .hbm, ⟨16, _⟩ => ⟨S32x32, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S10x8192, .f32⟩
  | .local _ .vmem, ⟨1, _⟩ => ⟨S10x8192, .f32⟩
  | .local _ .vmem, ⟨2, _⟩ => ⟨S1x32x32, .f32⟩
  | .local _ .vmem, ⟨3, _⟩ => ⟨S1x32x32, .f32⟩
  | .local _ .vmem, ⟨4, _⟩ => ⟨S32x32, .f32⟩
  | _, _ => ⟨S131072x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v83 : BitVec 1 := Scalar.cmpi .eq arg1 c7_i32
  let v84 : BitVec 32 := Scalar.extui v83
  let c0_i32_16 : BitVec 32 := 0#32
  let v85 : BitVec 1 := Scalar.cmpi .ne v84 c0_i32_16
  v85

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  transposes_S131072x10_S10x131072_1_0 : S131072x10.Transposes [1, 0] S10x131072
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S10x8192_S10x8192_0_0 : ∀ a, (![0, 0] : Fin 2 → Nat) a + S10x8192.size a ≤ S10x8192.size a
  h_S10x8192 : 0 < S10x8192.numel
  shapeCasts_S10x8192_S10x8192 : S10x8192.ShapeCasts S10x8192
  slices_S10x8192_o0_0_S1x8192 : S10x8192.Slices ![0, 0] S1x8192
  concatenates_S1x8192_S1x8192_S2x8192_d0 : Shape.Concatenates [S1x8192, S1x8192] S2x8192 0
  slices_S10x8192_o1_0_S1x8192 : S10x8192.Slices ![1, 0] S1x8192
  broadcasts_S1x8192_S2x8192 : S1x8192.Broadcasts S2x8192
  concatenates_S2x8192_S2x8192_S4x8192_d0 : Shape.Concatenates [S2x8192, S2x8192] S4x8192 0
  slices_S10x8192_o2_0_S1x8192 : S10x8192.Slices ![2, 0] S1x8192
  broadcasts_S1x8192_S4x8192 : S1x8192.Broadcasts S4x8192
  concatenates_S4x8192_S4x8192_S8x8192_d0 : Shape.Concatenates [S4x8192, S4x8192] S8x8192 0
  slices_S10x8192_o3_0_S1x8192 : S10x8192.Slices ![3, 0] S1x8192
  broadcasts_S1x8192_S8x8192 : S1x8192.Broadcasts S8x8192
  concatenates_S8x8192_S8x8192_S16x8192_d0 : Shape.Concatenates [S8x8192, S8x8192] S16x8192 0
  slices_S10x8192_o4_0_S1x8192 : S10x8192.Slices ![4, 0] S1x8192
  broadcasts_S1x8192_S16x8192 : S1x8192.Broadcasts S16x8192
  concatenates_S16x8192_S16x8192_S32x8192_d0 : Shape.Concatenates [S16x8192, S16x8192] S32x8192 0
  slices_S10x8192_o5_0_S1x8192 : S10x8192.Slices ![5, 0] S1x8192
  slices_S10x8192_o6_0_S1x8192 : S10x8192.Slices ![6, 0] S1x8192
  slices_S10x8192_o7_0_S1x8192 : S10x8192.Slices ![7, 0] S1x8192
  slices_S10x8192_o8_0_S1x8192 : S10x8192.Slices ![8, 0] S1x8192
  slices_S10x8192_o9_0_S1x8192 : S10x8192.Slices ![9, 0] S1x8192
  inb_S1x32x32_S1x32x32_0_0_0 : ∀ a, (![0, 0, 0] : Fin 3 → Nat) a + S1x32x32.size a ≤ S1x32x32.size a
  h_S1x32x32 : 0 < S1x32x32.numel
  shapeCasts_S1x32x32_S32x32 : S1x32x32.ShapeCasts S32x32
  shapeCasts_S32x32_S1x32x32 : S32x32.ShapeCasts S1x32x32
  reducesTo_S2x32x32_S32x32_d0 : S2x32x32.ReducesTo [0] S32x32
  h_S_ : 0 < S_.numel
  bcast_S_S32x32 : S_.BroadcastsInDim S32x32 (![] : Fin 0 → Fin S32x32.rank)
  reducesTo_S32x32_S_d0_1 : S32x32.ReducesTo [0, 1] S_
  dot_S32x8192_S32x8192_S32x32_1_1_0_0_n_n_wf : DotDims.WF S32x8192 S32x8192 S32x32 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x8192.size a ≤ S10x131072.size a
  hwx0_0 : ∀ i : grid0.Coords, EltTy.bits .f32 = 32 ∨ (Rect.block (s := S10x131072) S10x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x32.size a ≤ S2x32x32.size a
  hwx0_1 : ∀ i : grid0.Coords, EltTy.bits .f32 = 32 ∨ (Rect.block (s := S2x32x32) S1x32x32.size (cc0_transform_1 i) (hinb0_1 i)).WholeWords (EltTy.packing .f32)

variable [Facts₀]

def dot_S32x8192_S32x8192_S32x32_1_1_0_0_n_n : DotDims S32x8192 S32x8192 S32x32 where
  lhsContracting := [1]
  rhsContracting := [1]
  lhsNonContracting := [0]
  rhsNonContracting := [0]
  lhsBatch := []
  rhsBatch := []
  wf := dot_S32x8192_S32x8192_S32x32_1_1_0_0_n_n_wf

abbrev win0_0 : Pipeline.Window sig grid0 :=
  Pipeline.Window.ofSpec (Memref.whole main_v0) S10x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32x32.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S131072x10 : Shape := ⟨2, ![131072, 10]⟩
abbrev S_ : Shape := ⟨0, ![]⟩
abbrev S131072x10x1 : Shape := ⟨3, ![131072, 10, 1]⟩
abbrev S131072x10x2 : Shape := ⟨3, ![131072, 10, 2]⟩
abbrev S131072x1x2 : Shape := ⟨3, ![131072, 1, 2]⟩
abbrev S131072x2 : Shape := ⟨2, ![131072, 2]⟩
abbrev S131072x2x1 : Shape := ⟨3, ![131072, 2, 1]⟩
abbrev S131072x2x2 : Shape := ⟨3, ![131072, 2, 2]⟩
abbrev S131072x4 : Shape := ⟨2, ![131072, 4]⟩
abbrev S131072x4x1 : Shape := ⟨3, ![131072, 4, 1]⟩
abbrev S131072x4x2 : Shape := ⟨3, ![131072, 4, 2]⟩
abbrev S131072x8 : Shape := ⟨2, ![131072, 8]⟩
abbrev S131072x8x1 : Shape := ⟨3, ![131072, 8, 1]⟩
abbrev S131072x8x2 : Shape := ⟨3, ![131072, 8, 2]⟩
abbrev S131072x16 : Shape := ⟨2, ![131072, 16]⟩
abbrev S131072x16x1 : Shape := ⟨3, ![131072, 16, 1]⟩
abbrev S131072x16x2 : Shape := ⟨3, ![131072, 16, 2]⟩
abbrev S131072x32 : Shape := ⟨2, ![131072, 32]⟩
abbrev S131072x32x1 : Shape := ⟨3, ![131072, 32, 1]⟩
abbrev S131072x32x2 : Shape := ⟨3, ![131072, 32, 2]⟩
abbrev S131072x64 : Shape := ⟨2, ![131072, 64]⟩
abbrev S131072x64x1 : Shape := ⟨3, ![131072, 64, 1]⟩
abbrev S131072x64x2 : Shape := ⟨3, ![131072, 64, 2]⟩
abbrev S131072x128 : Shape := ⟨2, ![131072, 128]⟩
abbrev S131072x128x1 : Shape := ⟨3, ![131072, 128, 1]⟩
abbrev S131072x128x2 : Shape := ⟨3, ![131072, 128, 2]⟩
abbrev S131072x256 : Shape := ⟨2, ![131072, 256]⟩
abbrev S131072x256x1 : Shape := ⟨3, ![131072, 256, 1]⟩
abbrev S131072x256x2 : Shape := ⟨3, ![131072, 256, 2]⟩
abbrev S131072x512 : Shape := ⟨2, ![131072, 512]⟩
abbrev S131072x512x1 : Shape := ⟨3, ![131072, 512, 1]⟩
abbrev S131072x512x2 : Shape := ⟨3, ![131072, 512, 2]⟩
abbrev S131072x1024 : Shape := ⟨2, ![131072, 1024]⟩
abbrev S1024 : Shape := ⟨1, ![1024]⟩

abbrev nBuf : Space → Nat
  | .hbm => 99
  | .vmem => 0
  | .smem => 0
  | _ => 0

abbrev bufTy : (tb : Table) → Fin (tcTables nBuf tb) → BufTy
  | .hbm, ⟨0, _⟩ => ⟨S131072x10, .f32⟩
  | .hbm, ⟨1, _⟩ => ⟨S_, .f32⟩
  | .hbm, ⟨2, _⟩ => ⟨S131072x10, .f32⟩
  | .hbm, ⟨3, _⟩ => ⟨S131072x10, .f32⟩
  | .hbm, ⟨4, _⟩ => ⟨S131072x10x1, .f32⟩
  | .hbm, ⟨5, _⟩ => ⟨S131072x10x1, .f32⟩
  | .hbm, ⟨6, _⟩ => ⟨S131072x10x2, .f32⟩
  | .hbm, ⟨7, _⟩ => ⟨S131072x1x2, .f32⟩
  | .hbm, ⟨8, _⟩ => ⟨S131072x2, .f32⟩
  | .hbm, ⟨9, _⟩ => ⟨S131072x2x1, .f32⟩
  | .hbm, ⟨10, _⟩ => ⟨S131072x1x2, .f32⟩
  | .hbm, ⟨11, _⟩ => ⟨S131072x2, .f32⟩
  | .hbm, ⟨12, _⟩ => ⟨S131072x1x2, .f32⟩
  | .hbm, ⟨13, _⟩ => ⟨S131072x2x2, .f32⟩
  | .hbm, ⟨14, _⟩ => ⟨S131072x2x2, .f32⟩
  | .hbm, ⟨15, _⟩ => ⟨S131072x2x2, .f32⟩
  | .hbm, ⟨16, _⟩ => ⟨S131072x4, .f32⟩
  | .hbm, ⟨17, _⟩ => ⟨S131072x4x1, .f32⟩
  | .hbm, ⟨18, _⟩ => ⟨S131072x1x2, .f32⟩
  | .hbm, ⟨19, _⟩ => ⟨S131072x2, .f32⟩
  | .hbm, ⟨20, _⟩ => ⟨S131072x1x2, .f32⟩
  | .hbm, ⟨21, _⟩ => ⟨S131072x4x2, .f32⟩
  | .hbm, ⟨22, _⟩ => ⟨S131072x4x2, .f32⟩
  | .hbm, ⟨23, _⟩ => ⟨S131072x4x2, .f32⟩
  | .hbm, ⟨24, _⟩ => ⟨S131072x8, .f32⟩
  | .hbm, ⟨25, _⟩ => ⟨S131072x8x1, .f32⟩
  | .hbm, ⟨26, _⟩ => ⟨S131072x1x2, .f32⟩
  | .hbm, ⟨27, _⟩ => ⟨S131072x2, .f32⟩
  | .hbm, ⟨28, _⟩ => ⟨S131072x1x2, .f32⟩
  | .hbm, ⟨29, _⟩ => ⟨S131072x8x2, .f32⟩
  | .hbm, ⟨30, _⟩ => ⟨S131072x8x2, .f32⟩
  | .hbm, ⟨31, _⟩ => ⟨S131072x8x2, .f32⟩
  | .hbm, ⟨32, _⟩ => ⟨S131072x16, .f32⟩
  | .hbm, ⟨33, _⟩ => ⟨S131072x16x1, .f32⟩
  | .hbm, ⟨34, _⟩ => ⟨S131072x1x2, .f32⟩
  | .hbm, ⟨35, _⟩ => ⟨S131072x2, .f32⟩
  | .hbm, ⟨36, _⟩ => ⟨S131072x1x2, .f32⟩
  | .hbm, ⟨37, _⟩ => ⟨S131072x16x2, .f32⟩
  | .hbm, ⟨38, _⟩ => ⟨S131072x16x2, .f32⟩
  | .hbm, ⟨39, _⟩ => ⟨S131072x16x2, .f32⟩
  | .hbm, ⟨40, _⟩ => ⟨S131072x32, .f32⟩
  | .hbm, ⟨41, _⟩ => ⟨S131072x32x1, .f32⟩
  | .hbm, ⟨42, _⟩ => ⟨S131072x1x2, .f32⟩
  | .hbm, ⟨43, _⟩ => ⟨S131072x2, .f32⟩
  | .hbm, ⟨44, _⟩ => ⟨S131072x1x2, .f32⟩
  | .hbm, ⟨45, _⟩ => ⟨S131072x32x2, .f32⟩
  | .hbm, ⟨46, _⟩ => ⟨S131072x32x2, .f32⟩
  | .hbm, ⟨47, _⟩ => ⟨S131072x32x2, .f32⟩
  | .hbm, ⟨48, _⟩ => ⟨S131072x64, .f32⟩
  | .hbm, ⟨49, _⟩ => ⟨S131072x64x1, .f32⟩
  | .hbm, ⟨50, _⟩ => ⟨S131072x1x2, .f32⟩
  | .hbm, ⟨51, _⟩ => ⟨S131072x2, .f32⟩
  | .hbm, ⟨52, _⟩ => ⟨S131072x1x2, .f32⟩
  | .hbm, ⟨53, _⟩ => ⟨S131072x64x2, .f32⟩
  | .hbm, ⟨54, _⟩ => ⟨S131072x64x2, .f32⟩
  | .hbm, ⟨55, _⟩ => ⟨S131072x64x2, .f32⟩
  | .hbm, ⟨56, _⟩ => ⟨S131072x128, .f32⟩
  | .hbm, ⟨57, _⟩ => ⟨S131072x128x1, .f32⟩
  | .hbm, ⟨58, _⟩ => ⟨S131072x1x2, .f32⟩
  | .hbm, ⟨59, _⟩ => ⟨S131072x2, .f32⟩
  | .hbm, ⟨60, _⟩ => ⟨S131072x1x2, .f32⟩
  | .hbm, ⟨61, _⟩ => ⟨S131072x128x2, .f32⟩
  | .hbm, ⟨62, _⟩ => ⟨S131072x128x2, .f32⟩
  | .hbm, ⟨63, _⟩ => ⟨S131072x128x2, .f32⟩
  | .hbm, ⟨64, _⟩ => ⟨S131072x256, .f32⟩
  | .hbm, ⟨65, _⟩ => ⟨S131072x256x1, .f32⟩
  | .hbm, ⟨66, _⟩ => ⟨S131072x1x2, .f32⟩
  | .hbm, ⟨67, _⟩ => ⟨S131072x2, .f32⟩
  | .hbm, ⟨68, _⟩ => ⟨S131072x1x2, .f32⟩
  | .hbm, ⟨69, _⟩ => ⟨S131072x256x2, .f32⟩
  | .hbm, ⟨70, _⟩ => ⟨S131072x256x2, .f32⟩
  | .hbm, ⟨71, _⟩ => ⟨S131072x256x2, .f32⟩
  | .hbm, ⟨72, _⟩ => ⟨S131072x512, .f32⟩
  | .hbm, ⟨73, _⟩ => ⟨S131072x512x1, .f32⟩
  | .hbm, ⟨74, _⟩ => ⟨S131072x1x2, .f32⟩
  | .hbm, ⟨75, _⟩ => ⟨S131072x2, .f32⟩
  | .hbm, ⟨76, _⟩ => ⟨S131072x1x2, .f32⟩
  | .hbm, ⟨77, _⟩ => ⟨S131072x512x2, .f32⟩
  | .hbm, ⟨78, _⟩ => ⟨S131072x512x2, .f32⟩
  | .hbm, ⟨79, _⟩ => ⟨S131072x512x2, .f32⟩
  | .hbm, ⟨80, _⟩ => ⟨S131072x1024, .f32⟩
  | .hbm, ⟨81, _⟩ => ⟨S_, .f32⟩
  | .hbm, ⟨82, _⟩ => ⟨S1024, .f32⟩
  | .hbm, ⟨83, _⟩ => ⟨S_, .f32⟩
  | .hbm, ⟨84, _⟩ => ⟨S1024, .f32⟩
  | .hbm, ⟨85, _⟩ => ⟨S1024, .f32⟩
  | .hbm, ⟨86, _⟩ => ⟨S_, .f32⟩
  | .hbm, ⟨87, _⟩ => ⟨S_, .f32⟩
  | .hbm, ⟨88, _⟩ => ⟨S1024, .f32⟩
  | .hbm, ⟨89, _⟩ => ⟨S1024, .f32⟩
  | .hbm, ⟨90, _⟩ => ⟨S1024, .f32⟩
  | .hbm, ⟨91, _⟩ => ⟨S_, .f32⟩
  | .hbm, ⟨92, _⟩ => ⟨S1024, .f32⟩
  | .hbm, ⟨93, _⟩ => ⟨S1024, .f32⟩
  | .hbm, ⟨94, _⟩ => ⟨S1024, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S131072x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_cst_0 : Ref sig .tc := ⟨.hbm, 81, rfl⟩
abbrev main_v79 : Ref sig .tc := ⟨.hbm, 82, rfl⟩
abbrev main_cst_1 : Ref sig .tc := ⟨.hbm, 83, rfl⟩
abbrev main_v80 : Ref sig .tc := ⟨.hbm, 84, rfl⟩
abbrev main_v81 : Ref sig .tc := ⟨.hbm, 85, rfl⟩
abbrev main_cst_2 : Ref sig .tc := ⟨.hbm, 86, rfl⟩
abbrev main_call0_v0 : Ref sig .tc := ⟨.hbm, 87, rfl⟩
abbrev main_call0_v1 : Ref sig .tc := ⟨.hbm, 88, rfl⟩
abbrev main_v82 : Ref sig .tc := ⟨.hbm, 89, rfl⟩
abbrev main_v83 : Ref sig .tc := ⟨.hbm, 90, rfl⟩
abbrev main_cst_3 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_cst_4 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩

abbrev nD : Nat := 1
abbrev τ : Topo := Topo.v7x

variable {F : FTy → Type} [FloatOps F]

class Facts₀ : Prop where
  bcast_S_S131072x10 : S_.BroadcastsInDim S131072x10 (![] : Fin 0 → Fin S131072x10.rank)
  bcast_S131072x10_S131072x10x1_0_1 : S131072x10.BroadcastsInDim S131072x10x1 (![0, 1] : Fin 2 → Fin S131072x10x1.rank)
  concatenates_S131072x10x1_S131072x10x1_S131072x10x2_d2 : Shape.Concatenates [S131072x10x1, S131072x10x1] S131072x10x2 2
  slices_S131072x10x2_S131072x1x2_0_0_0 : S131072x10x2.Slices ![0, 0, 0] S131072x1x2
  shapeCasts_S131072x1x2_S131072x2 : S131072x1x2.ShapeCasts S131072x2
  bcast_S131072x2_S131072x2x1_0_1 : S131072x2.BroadcastsInDim S131072x2x1 (![0, 1] : Fin 2 → Fin S131072x2x1.rank)
  slices_S131072x10x2_S131072x1x2_0_1_0 : S131072x10x2.Slices ![0, 1, 0] S131072x1x2
  bcast_S131072x2_S131072x1x2_0_2 : S131072x2.BroadcastsInDim S131072x1x2 (![0, 2] : Fin 2 → Fin S131072x1x2.rank)
  bcast_S131072x2x1_S131072x2x2_0_1_2 : S131072x2x1.BroadcastsInDim S131072x2x2 (![0, 1, 2] : Fin 3 → Fin S131072x2x2.rank)
  bcast_S131072x1x2_S131072x2x2_0_1_2 : S131072x1x2.BroadcastsInDim S131072x2x2 (![0, 1, 2] : Fin 3 → Fin S131072x2x2.rank)
  shapeCasts_S131072x2x2_S131072x4 : S131072x2x2.ShapeCasts S131072x4
  bcast_S131072x4_S131072x4x1_0_1 : S131072x4.BroadcastsInDim S131072x4x1 (![0, 1] : Fin 2 → Fin S131072x4x1.rank)
  slices_S131072x10x2_S131072x1x2_0_2_0 : S131072x10x2.Slices ![0, 2, 0] S131072x1x2
  bcast_S131072x4x1_S131072x4x2_0_1_2 : S131072x4x1.BroadcastsInDim S131072x4x2 (![0, 1, 2] : Fin 3 → Fin S131072x4x2.rank)
  bcast_S131072x1x2_S131072x4x2_0_1_2 : S131072x1x2.BroadcastsInDim S131072x4x2 (![0, 1, 2] : Fin 3 → Fin S131072x4x2.rank)
  shapeCasts_S131072x4x2_S131072x8 : S131072x4x2.ShapeCasts S131072x8
  bcast_S131072x8_S131072x8x1_0_1 : S131072x8.BroadcastsInDim S131072x8x1 (![0, 1] : Fin 2 → Fin S131072x8x1.rank)
  slices_S131072x10x2_S131072x1x2_0_3_0 : S131072x10x2.Slices ![0, 3, 0] S131072x1x2
  bcast_S131072x8x1_S131072x8x2_0_1_2 : S131072x8x1.BroadcastsInDim S131072x8x2 (![0, 1, 2] : Fin 3 → Fin S131072x8x2.rank)
  bcast_S131072x1x2_S131072x8x2_0_1_2 : S131072x1x2.BroadcastsInDim S131072x8x2 (![0, 1, 2] : Fin 3 → Fin S131072x8x2.rank)
  shapeCasts_S131072x8x2_S131072x16 : S131072x8x2.ShapeCasts S131072x16
  bcast_S131072x16_S131072x16x1_0_1 : S131072x16.BroadcastsInDim S131072x16x1 (![0, 1] : Fin 2 → Fin S131072x16x1.rank)
  slices_S131072x10x2_S131072x1x2_0_4_0 : S131072x10x2.Slices ![0, 4, 0] S131072x1x2
  bcast_S131072x16x1_S131072x16x2_0_1_2 : S131072x16x1.BroadcastsInDim S131072x16x2 (![0, 1, 2] : Fin 3 → Fin S131072x16x2.rank)
  bcast_S131072x1x2_S131072x16x2_0_1_2 : S131072x1x2.BroadcastsInDim S131072x16x2 (![0, 1, 2] : Fin 3 → Fin S131072x16x2.rank)
  shapeCasts_S131072x16x2_S131072x32 : S131072x16x2.ShapeCasts S131072x32
  bcast_S131072x32_S131072x32x1_0_1 : S131072x32.BroadcastsInDim S131072x32x1 (![0, 1] : Fin 2 → Fin S131072x32x1.rank)
  slices_S131072x10x2_S131072x1x2_0_5_0 : S131072x10x2.Slices ![0, 5, 0] S131072x1x2
  bcast_S131072x32x1_S131072x32x2_0_1_2 : S131072x32x1.BroadcastsInDim S131072x32x2 (![0, 1, 2] : Fin 3 → Fin S131072x32x2.rank)
  bcast_S131072x1x2_S131072x32x2_0_1_2 : S131072x1x2.BroadcastsInDim S131072x32x2 (![0, 1, 2] : Fin 3 → Fin S131072x32x2.rank)
  shapeCasts_S131072x32x2_S131072x64 : S131072x32x2.ShapeCasts S131072x64
  bcast_S131072x64_S131072x64x1_0_1 : S131072x64.BroadcastsInDim S131072x64x1 (![0, 1] : Fin 2 → Fin S131072x64x1.rank)
  slices_S131072x10x2_S131072x1x2_0_6_0 : S131072x10x2.Slices ![0, 6, 0] S131072x1x2
  bcast_S131072x64x1_S131072x64x2_0_1_2 : S131072x64x1.BroadcastsInDim S131072x64x2 (![0, 1, 2] : Fin 3 → Fin S131072x64x2.rank)
  bcast_S131072x1x2_S131072x64x2_0_1_2 : S131072x1x2.BroadcastsInDim S131072x64x2 (![0, 1, 2] : Fin 3 → Fin S131072x64x2.rank)
  shapeCasts_S131072x64x2_S131072x128 : S131072x64x2.ShapeCasts S131072x128
  bcast_S131072x128_S131072x128x1_0_1 : S131072x128.BroadcastsInDim S131072x128x1 (![0, 1] : Fin 2 → Fin S131072x128x1.rank)
  slices_S131072x10x2_S131072x1x2_0_7_0 : S131072x10x2.Slices ![0, 7, 0] S131072x1x2
  bcast_S131072x128x1_S131072x128x2_0_1_2 : S131072x128x1.BroadcastsInDim S131072x128x2 (![0, 1, 2] : Fin 3 → Fin S131072x128x2.rank)
  bcast_S131072x1x2_S131072x128x2_0_1_2 : S131072x1x2.BroadcastsInDim S131072x128x2 (![0, 1, 2] : Fin 3 → Fin S131072x128x2.rank)
  shapeCasts_S131072x128x2_S131072x256 : S131072x128x2.ShapeCasts S131072x256
  bcast_S131072x256_S131072x256x1_0_1 : S131072x256.BroadcastsInDim S131072x256x1 (![0, 1] : Fin 2 → Fin S131072x256x1.rank)
  slices_S131072x10x2_S131072x1x2_0_8_0 : S131072x10x2.Slices ![0, 8, 0] S131072x1x2
  bcast_S131072x256x1_S131072x256x2_0_1_2 : S131072x256x1.BroadcastsInDim S131072x256x2 (![0, 1, 2] : Fin 3 → Fin S131072x256x2.rank)
  bcast_S131072x1x2_S131072x256x2_0_1_2 : S131072x1x2.BroadcastsInDim S131072x256x2 (![0, 1, 2] : Fin 3 → Fin S131072x256x2.rank)
  shapeCasts_S131072x256x2_S131072x512 : S131072x256x2.ShapeCasts S131072x512
  bcast_S131072x512_S131072x512x1_0_1 : S131072x512.BroadcastsInDim S131072x512x1 (![0, 1] : Fin 2 → Fin S131072x512x1.rank)
  slices_S131072x10x2_S131072x1x2_0_9_0 : S131072x10x2.Slices ![0, 9, 0] S131072x1x2
  bcast_S131072x512x1_S131072x512x2_0_1_2 : S131072x512x1.BroadcastsInDim S131072x512x2 (![0, 1, 2] : Fin 3 → Fin S131072x512x2.rank)
  bcast_S131072x1x2_S131072x512x2_0_1_2 : S131072x1x2.BroadcastsInDim S131072x512x2 (![0, 1, 2] : Fin 3 → Fin S131072x512x2.rank)
  shapeCasts_S131072x512x2_S131072x1024 : S131072x512x2.ShapeCasts S131072x1024
  reducesTo_S131072x1024_S1024_d0 : S131072x1024.ReducesTo [0] S1024
  h_S_ : 0 < S_.numel
  bcast_S_S1024 : S_.BroadcastsInDim S1024 (![] : Fin 0 → Fin S1024.rank)
  reducesTo_S1024_S_d0 : S1024.ReducesTo [0] S_

variable [Facts₀]

class Facts : Prop extends Facts₀ where

variable [Facts]
-- ==== Proof.Pieces.lean ====
/-
  What the kernel body leaves behind at one grid point, in each of its three control cases.

  The body keeps a 32 × 32 accumulator in scratch memory across the eight tiles of a half. At the half's first tile
  it stores zeros and then the update of those zeros; at every later tile it stores the update of what the tile
  before left; at the last tile it also copies the accumulator into the half's [1, 32, 32] output block. The update
  (`step`) is the same pure function of the tile's input block in all three cases.
-/
import proofs.«142535_j57071525430111_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One grid point's update of the 32 × 32 accumulator `acc` from the point's [10, 8192] input block `x0`:
    `acc` plus the product of the two 32-state weight matrices built from the block's components. -/
abbrev step (x0 : Vec F S10x8192 .f32) (acc : Vec F S32x32 .f32) : Vec F S32x32 .f32 :=
  k0_pay1 (k0_pay4 x0) (k0_pay5 x0) (k0_pay6 x0) (k0_pay7 x0) (Scalar.ofBits .f32 0x3F800000#32) acc

/-- At a half's first tile the accumulator is first set to zero, then updated. -/
theorem sout_A (c : Dev nD) (i : grid0.Coords) (arg2 : Memref sig .tc .vmem S10x8192 .f32) (harg2 : arg2.IsWhole) (arg3 : Memref sig .tc .vmem S1x32x32 .f32) (harg3 : arg3.IsWhole) (arg4 : Memref sig .tc .vmem S32x32 .f32) (harg4 : arg4.IsWhole) (hc0 : cond0_0 i) (hc1 : ¬cond0_1 i)
    (x0 : Vec F S10x8192 .f32) :
    sout0_A_0 c i arg2 harg2 arg3 harg3 arg4 harg4 hc0 hc1 x0 = step x0 k0_pay3 := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S32x32) hz2, View.readCov_unit_zero (S := S32x32) _ hz2]
  simp only [View.readAt_eq_ld, harg2.read_unread, View.ld_unit_zero (S := S10x8192) hz2]

/-- At a middle tile the accumulator the tile before left is updated. -/
theorem sout_B (c : Dev nD) (i : grid0.Coords) (arg2 : Memref sig .tc .vmem S10x8192 .f32) (harg2 : arg2.IsWhole) (arg3 : Memref sig .tc .vmem S1x32x32 .f32) (harg3 : arg3.IsWhole) (arg4 : Memref sig .tc .vmem S32x32 .f32) (harg4 : arg4.IsWhole) (hc0 : ¬cond0_0 i) (hc1 : ¬cond0_1 i)
    (x0 : Vec F S10x8192 .f32) (xs0 : Vec F S32x32 .f32) :
    sout0_B_0 c i arg2 harg2 arg3 harg3 arg4 harg4 hc0 hc1 x0 xs0 = step x0 xs0 := by
  unfold sout0_B_0
  rw [View.read_writes_eq_canon _ _ _ (scover0_B_0 c i arg2 harg2 arg3 harg3 arg4 harg4 hc0 hc1 x0 xs0)]
  unfold kernelRun0_B
  dsimp only
  sl_unfold_words
  rw [View.canon_unit_zero hz2]
  simp only [View.readAt_eq_ld, harg2.read_unread, harg4.read_unread, View.ld_unit_zero (S := S10x8192) hz2,
    View.ld_unit_zero (S := S32x32) hz2]

/-- At a half's last tile the accumulator is updated the same way, -/
theorem sout_C (c : Dev nD) (i : grid0.Coords) (arg2 : Memref sig .tc .vmem S10x8192 .f32) (harg2 : arg2.IsWhole) (arg3 : Memref sig .tc .vmem S1x32x32 .f32) (harg3 : arg3.IsWhole) (arg4 : Memref sig .tc .vmem S32x32 .f32) (harg4 : arg4.IsWhole) (hc0 : ¬cond0_0 i) (hc1 : cond0_1 i)
    (x0 : Vec F S10x8192 .f32) (xs0 : Vec F S32x32 .f32) :
    sout0_C_0 c i arg2 harg2 arg3 harg3 arg4 harg4 hc0 hc1 x0 xs0 = step x0 xs0 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero hz2]
  simp only [View.readAt_eq_ld, harg2.read_unread, harg4.read_unread, View.ld_unit_zero (S := S10x8192) hz2,
    View.ld_unit_zero (S := S32x32) hz2]

/-- and the updated accumulator is copied into the half's output block. -/
theorem out_C (c : Dev nD) (i : grid0.Coords) (arg2 : Memref sig .tc .vmem S10x8192 .f32) (harg2 : arg2.IsWhole) (arg3 : Memref sig .tc .vmem S1x32x32 .f32) (harg3 : arg3.IsWhole) (arg4 : Memref sig .tc .vmem S32x32 .f32) (harg4 : arg4.IsWhole) (hc0 : ¬cond0_0 i) (hc1 : cond0_1 i)
    (x0 : Vec F S10x8192 .f32) (xs0 : Vec F S32x32 .f32) :
    out0_C_1 c i arg2 harg2 arg3 harg3 arg4 harg4 hc0 hc1 x0 xs0 = k0_pay2 (step x0 xs0) := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero hz3, View.readCov_unit_zero (S := S32x32) _ hz2]
  simp only [View.readAt_eq_ld, harg2.read_unread, harg4.read_unread, View.ld_unit_zero (S := S10x8192) hz2,
    View.ld_unit_zero (S := S32x32) hz2]

end Cert.KernelIdeal.Body
end
-- ==== Proof.Accum.lean ====
/-
  The accumulator along the grid. The 16 grid points run in order, eight tiles for each of the two halves; the
  scratch accumulator restarts at a half's first tile and is updated at every tile, and the half's output block
  receives it at the half's last tile. What the generated frame tracks point by point (one control case per
  position modulo 8) is this running accumulator.
-/
import proofs.«142535_j57071525430111_2_alg».proof.Proof.Gen.KernelIdeal.Frame
import Idealize.ShloMosaic.Lib.Pipeline.Value
import Idealize.ShloMosaic.Lib.Tactic
import proofs.«142535_j57071525430111_2_alg».proof.Proof.Pieces

noncomputable section

open Idealize.ShloMosaic Idealize.ShloMosaic.TcCoe Idealize.SL.Sem
open Idealize.ShloMosaic.Pipeline (Dat)

namespace Cert.KernelIdeal.Body
open Cert.KernelIdeal Cert.KernelIdeal.Gen
variable {F : FTy → Type} [FloatOps F]
variable (m : (ℓ : Loc nD τ sig) → Buf (Elt F) ℓ)

/-- The accumulator after grid point `n`: restarted from zeros at each half's first tile (n ≡ 0 mod 8), otherwise the
    update of what point n - 1 left, by the block of point n. -/
def acc (c : Dev nD) : (n : ℕ) → n < cfg0.N → Vec F S32x32 .f32
  | 0, h => step (iblk m c 0 ⟨0, h⟩) k0_pay3
  | n + 1, h =>
    if (n + 1) % 8 = 0 then step (iblk m c 0 ⟨n + 1, h⟩) k0_pay3
    else step (iblk m c 0 ⟨n + 1, h⟩) (acc c n (Nat.lt_of_succ_lt h))

theorem acc_first (c : Dev nD) (n : ℕ) (h : n < cfg0.N) (h0 : n % 8 = 0) :
    acc m c n h = step (iblk m c 0 ⟨n, h⟩) k0_pay3 := by
  cases n with
  | zero => rfl
  | succ n => exact if_pos h0

theorem acc_next (c : Dev nD) (n : ℕ) (h : n + 1 < cfg0.N) (h0 : ¬(n + 1) % 8 = 0) :
    acc m c (n + 1) h = step (iblk m c 0 ⟨n + 1, h⟩) (acc m c n (Nat.lt_of_succ_lt h)) := if_neg h0

theorem fst_of_eq {α β : Type _} {p : α × β} {a : α} {b : β} (h : p = (a, b)) : p.1 = a := by rw [h]
theorem snd_of_eq {α β : Type _} {p : α × β} {a : α} {b : β} (h : p = (a, b)) : p.2 = b := by rw [h]

/-- The scratch the generated frame tracks point by point holds that accumulator: by induction on the point, each
    point in the control case its position selects. -/
theorem outsAt_scratch (c : Dev nD) : ∀ (n : ℕ) (h : n < cfg0.N), (outsAt0 m c n h).2 = acc m c n h
  | 0, h =>
    (snd_of_eq (outsAt0_A m c ⟨0, h⟩ rfl (fun h7 => by have : (0 : ℕ) % 8 = 7 := h7; omega))).trans (sout_A ..)
  | n + 1, h => by
    by_cases h0 : (n + 1) % 8 = 0
    · have h1 : ¬(n + 1) % 8 = 7 := by omega
      rw [acc_first m c (n + 1) h h0]
      exact (snd_of_eq (outsAt0_A m c ⟨n + 1, h⟩ h0 h1)).trans (sout_A ..)
    · rw [acc_next m c n h h0]
      by_cases h1 : (n + 1) % 8 = 7
      · refine (snd_of_eq (outsAt0_C m c ⟨n + 1, h⟩ h0 h1)).trans ((sout_C ..).trans ?_)
        exact congrArg (step _) (outsAt_scratch c n _)
      · refine (snd_of_eq (outsAt0_B m c ⟨n + 1, h⟩ h0 h1)).trans ((sout_B ..).trans ?_)
        exact congrArg (step _) (outsAt_scratch c n _)

/-- At a half's last tile (n ≡ 7 mod 8) the output block holds a copy of the accumulator. -/
theorem outsAt_out (c : Dev nD) (n : ℕ) (h : n < cfg0.N) (h7 : n % 8 = 7) :
    (outsAt0 m c n h).1 = k0_pay2 (acc m c n h) := by
  obtain ⟨n, rfl⟩ : ∃ k, n = k + 1 := ⟨n - 1, by omega⟩
  have h0 : ¬(n + 1) % 8 = 0 := by omega
  rw [acc_next m c n h h0]
  refine (fst_of_eq (outsAt0_C m c ⟨n + 1, h⟩ h0 h7)).trans ((out_C ..).trans ?_)
  exact congrArg (fun a => k0_pay2 (step _ a)) (outsAt_scratch m c n _)

end Cert.KernelIdeal.Body
end
-- ==== Proof.Final.lean ====
/-
  The result array of the region. The output window's block index follows the half only, and its block is written
  back once per half, after the half's last tile; the two written-back blocks are the two slabs of the [2, 32, 32]
  array, so after the region slab g holds the accumulator of half g's eight tiles.
-/
import proofs.«142535_j57071525430111_2_alg».proof.Proof.Gen.KernelIdeal.Frame
import Idealize.ShloMosaic.Lib.Pipeline.Value
import Idealize.ShloMosaic.Lib.Tactic
import proofs.«142535_j57071525430111_2_alg».proof.Proof.Accum
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)

namespace Cert.KernelIdeal.Body
open Cert.KernelIdeal Cert.KernelIdeal.Gen Idealize.ShloMosaic.ValueIdx
variable {F : FTy → Type} [FloatOps F]
variable (m : (ℓ : Loc nD τ sig) → Buf (Elt F) ℓ)

/-- The last grid point of half `g`. -/
theorem last_lt (g : ℕ) (hg : g < 2) : g * 8 + 7 < cfg0.N := by have hN : cfg0.N = 16 := N_0; omega

theorem acc_congr (c : Dev nD) {n n' : ℕ} (e : n = n') (h : n < cfg0.N) (h' : n' < cfg0.N) : acc m c n h = acc m c n' h' := by
  subst e; rfl

/-- The [2, 32, 32] result array the region leaves: slab `g` is the accumulator after half `g`'s last tile. -/
def outG (c : Dev nD) : Buf (Elt F) ((c : Thread nD τ).loc main_v1) :=
  fun idx => acc m c ((idx 0).val * 8 + 7) (last_lt _ (idx 0).isLt) (ix2 (⟨(idx 1).val, (idx 1).isLt⟩ : Fin 32) (⟨(idx 2).val, (idx 2).isLt⟩ : Fin 32))

theorem outG_apply (c : Dev nD) (g : Fin 2) (i j : Fin 32) :
    outG m c (ix3 g i j) = acc m c (g.val * 8 + 7) (last_lt _ g.isLt) (ix2 i j) := rfl

/-- Window 1's block at grid point `t` is slab t / 8 of the result array. -/
theorem index1 : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)

/-- The copy into the output block: a [32, 32] array viewed as [1, 32, 32]. -/
theorem pay2_apply (v : Vec F S32x32 .f32) (u : Fin 1) (i j : Fin 32) : k0_pay2 v (ix3 u i j) = v (ix2 i j) :=
  shapeCast_ab_1ab_apply v shapeCasts_S32x32_S1x32x32 u i j

/-- What a write-back point (a half's last tile) writes back is its slab of `outG`. -/
theorem flushed_eq (c : Dev nD) (t : Fin cfg0.N) (hf : (cfg0.win 1).flush t = true) :
    (dats m 0 c).flushed 1 t = ((cfg0.win 1).blk t).view.read (Elt F) (outG m c) := by
  have h7 : t.val % 8 = 7 := (flush0_1 t).mp hf
  have hN : cfg0.N = 16 := N_0
  have ht := t.isLt
  show (cfg0.win 1).cut (grid0.coords t) ((dats m 0 c).after 1 t) = _
  rw [after0_1, outsAt_out m c t.val t.isLt h7]
  funext y
  rw [View.read_apply]
  have hg : t.val / 8 < 2 := by omega
  have e : ((cfg0.win 1).blk t).view.emb y
      = (ix3 (⟨t.val / 8, hg⟩ : Fin 2) (⟨(y 1).val, (y 1).isLt⟩ : Fin 32) (⟨(y 2).val, (y 2).isLt⟩ : Fin 32) : S2x32x32.Idx) :=
    funext fun a => Fin.ext (by
      have h0 : (y 0).val < 1 := (y 0).isLt
      match a with
      | ⟨0, _⟩ => show win0_1.index t 0 * 1 + 1 * (y 0).val = t.val / 8; rw [(index1 t).1]; omega
      | ⟨1, _⟩ => show win0_1.index t 1 * 32 + 1 * (y 1).val = (y 1).val; rw [(index1 t).2.1]; omega
      | ⟨2, _⟩ => show win0_1.index t 2 * 32 + 1 * (y 2).val = (y 2).val; rw [(index1 t).2.2]; omega)
  rw [e, outG_apply, acc_congr m c (show t.val / 8 * 8 + 7 = t.val by omega) _ t.isLt]
  have ey : y = (ix3 (⟨(y 0).val, (y 0).isLt⟩ : Fin 1) (⟨(y 1).val, (y 1).isLt⟩ : Fin 32) (⟨(y 2).val, (y 2).isLt⟩ : Fin 32) : S1x32x32.Idx) :=
    funext fun a => by match a with | ⟨0, _⟩ => rfl | ⟨1, _⟩ => rfl | ⟨2, _⟩ => rfl
  show k0_pay2 (acc m c t.val t.isLt) y = _
  rw [ey]
  exact pay2_apply _ _ _ _

/-- The two write-backs tile the result array, so it ends at `outG`. -/
theorem final1 (c : Dev nD) : (dats m 0 c).arrAt 1 cfg0.N = outG m c :=
  (dats m 0 c).arrAt_eq_of_cover 1 (outG m c) (flushed_eq m c) fun i => by
    have hi0 : (i 0).val < 2 := (i 0).isLt
    have hi1 : (i 1).val < 32 := (i 1).isLt
    have hi2 : (i 2).val < 32 := (i 2).isLt
    have hN : cfg0.N = 16 := N_0
    let t : Fin cfg0.N := ⟨(i 0).val * 8 + 7, by omega⟩
    refine ⟨t, (flush0_1 t).mpr (by show ((i 0).val * 8 + 7) % 8 = 7; omega), ?_⟩
    show i ∈ ((View.whole main_v1).slice (win0_1.rect t)).set
    rw [View.set_slice_whole, Rect.mem_set_unit]
    intro a
    have ht : t.val / 8 = (i 0).val := by show ((i 0).val * 8 + 7) / 8 = (i 0).val; omega
    match a with
    | ⟨0, _⟩ =>
      show win0_1.index t 0 * win0_1.size 0 ≤ (i 0 : Nat) ∧ (i 0 : Nat) < win0_1.index t 0 * win0_1.size 0 + win0_1.xsize (grid0.coords t) 0
      rw [(index1 t).1, ht, show win0_1.size 0 = 1 from rfl, show win0_1.xsize (grid0.coords t) 0 = 1 from rfl]; omega
    | ⟨1, _⟩ =>
      show win0_1.index t 1 * win0_1.size 1 ≤ (i 1 : Nat) ∧ (i 1 : Nat) < win0_1.index t 1 * win0_1.size 1 + win0_1.xsize (grid0.coords t) 1
      rw [(index1 t).2.1, show win0_1.size 1 = 32 from rfl, show win0_1.xsize (grid0.coords t) 1 = 32 from rfl]; omega
    | ⟨2, _⟩ =>
      show win0_1.index t 2 * win0_1.size 2 ≤ (i 2 : Nat) ∧ (i 2 : Nat) < win0_1.index t 2 * win0_1.size 2 + win0_1.xsize (grid0.coords t) 2
      rw [(index1 t).2.2, show win0_1.size 2 = 32 from rfl, show win0_1.xsize (grid0.coords t) 2 = 32 from rfl]; omega

end Cert.KernelIdeal.Body
end
-- ==== Proof.BlockRead.lean ====
/-
  The kernel's input as the grid sees it. The host transposes the [131072, 10] argument to [10, 131072] before the
  region, and grid point t (t = 8·half + tile) is handed the block of all ten rows and the 8192 lanes from 8192·t on:
  entry (r, l) of that block is component r of the argument's row 8192·t + l.
-/
import proofs.«142535_j57071525430111_2_alg».proof.Proof.Gen.KernelIdeal.Frame
import Idealize.ShloMosaic.Lib.Pipeline.Value
import Idealize.ShloMosaic.Lib.Tactic
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.Body
open Cert.KernelIdeal Cert.KernelIdeal.Gen Idealize.ShloMosaic.ValueIdx
variable {F : FTy → Type} [FloatOps F]
variable (m : (ℓ : Loc nD τ sig) → Buf (Elt F) ℓ)

/-- The one host operation before the region transposes the argument: the region finds `main_v0` at the transposed array. -/
theorem V_v0 (c : Dev nD) :
    V m c main_v0 = transpose S10x131072 [1, 0] (m ((c : Thread nD τ).loc main_arg0)) transposes_S131072x10_S10x131072_1_0 := by
  show StableHlo.after hostOps0 (fun b => m (c, b)) (Proc.devRef .tc main_v0) = _
  after_results

/-- Window 0's block at grid point `t` is block (0, t) of the [10, 131072] array: all ten rows, lanes 8192·t … 8192·t + 8191. -/
theorem index0 : ∀ t : Fin cfg0.N, win0_0.index t 0 = 0 ∧ win0_0.index t 1 = t.val :=
  (by decide +kernel : ∀ t : Fin grid0.N, win0_0.index t 0 = 0 ∧ win0_0.index t 1 = t.val)

theorem row_lt (t : Fin cfg0.N) (l : Fin 8192) : t.val * 8192 + l.val < 131072 := by
  have h := t.isLt; have hN : cfg0.N = 16 := N_0; have := l.isLt; omega

/-- Entry (r, l) of the block at point `t` is the argument's entry (8192·t + l, r): component r of row 8192·t + l. -/
theorem iblk_apply (c : Dev nD) (t : Fin cfg0.N) (r : Fin 10) (l : Fin 8192) :
    (iblk m c 0 t : Vec F S10x8192 .f32) (ix2 r l)
      = m ((c : Thread nD τ).loc main_arg0) (ix2 ⟨t.val * 8192 + l.val, row_lt t l⟩ r) := by
  unfold iblk
  rw [View.read_apply]
  show V m c main_v0 _ = _
  rw [V_v0]
  have e : ((cfg0.win 0).blk t).view.emb (ix2 r l) = (ix2 r ⟨t.val * 8192 + l.val, row_lt t l⟩ : S10x131072.Idx) :=
    funext fun a => Fin.ext (by
      match a with
      | ⟨0, _⟩ => show win0_0.index t 0 * 10 + 1 * r.val = r.val; rw [(index0 t).1]; omega
      | ⟨1, _⟩ => show win0_0.index t 1 * 8192 + 1 * l.val = t.val * 8192 + l.val; rw [(index0 t).2]; omega)
  rw [e]
  exact transpose_ix2_apply _ _ _ _

end Cert.KernelIdeal.Body
end
-- ==== Proof.Spec.lean ====
/-
  The mathematics of the joint-entropy kernel, stated with no program in sight.

  Each of the B = 131072 rows of the input carries R = 10 components x₀ … x₉. A component x is softly assigned
  to two bins: bin 0 with weight 1 - x, bin 1 with weight x (`side`). A joint state picks one bin per
  component, and its weight in a row is the product of the ten chosen sides; there are 2¹⁰ = 1024 joint states.
  The mean weight of a state over the rows is its probability p, and the result is the sum over the states of
  p · log (max ε p) / log 2 (twice negated).

  Two ways of numbering the joint states appear. Growing the product one component at a time and putting the
  NEW component's bin in the LOWEST bit gives `prodLo`: after n + 1 components, state s is the state s / 2 of
  the first n components extended by the bin s % 2. Putting the new component's bin in the HIGHEST bit gives
  `prodHi`: state i of n + 1 components is state i % 2ⁿ⁺¹… of the first ones extended by the bin i / 2ⁿ⁺¹….
  One side computes all ten components the first way; the other computes components 0–4 and 5–9 separately
  the second way, and multiplies a state of the first five with a state of the last five, summing over the rows
  tile by tile: 2 halves × 8 tiles × 8192 rows.
-/
import Idealize.ShloMosaic.PureOps.Ideal
import Idealize.ShloMosaic.Lib.ValueIdx

noncomputable section

namespace Cert.Entropy

open Idealize.ShloMosaic
open scoped BigOperators

/-- The float literals of the two programs, as the extended reals their patterns denote: 1, 0, the row count
    131072, the clipping floor (the float nearest 1e-12) and the float nearest log 2. -/
def one : EReal := Ideal.ofBits .f32 0x3F800000#32
def zero : EReal := Ideal.ofBits .f32 0x00000000#32
def count : EReal := Ideal.ofBits .f32 0x48000000#32
def floorP : EReal := Ideal.ofBits .f32 0x2B8CBCCC#32
def ln2 : EReal := Ideal.ofBits .f32 0x3F317218#32

/-- The weight a component `x` gives to bin `k`: `1 - x` to bin 0, `x` to bin 1. -/
def side (x : EReal) (k : ℕ) : EReal := if k = 0 then one - x else x

/-- The weight of joint state `s` of components `x 0 … x n`, the newest component's bin in the lowest bit. -/
def prodLo (x : ℕ → EReal) : ℕ → ℕ → EReal
  | 0, s => side (x 0) s
  | n + 1, s => prodLo x n (s / 2) * side (x (n + 1)) (s % 2)

/-- The weight of joint state `i` of components `x 0 … x n`, the newest component's bin in the highest bit. -/
def prodHi (x : ℕ → EReal) : ℕ → ℕ → EReal
  | 0, i => side (x 0) i
  | n + 1, i => prodHi x n (i % 2 ^ (n + 1)) * side (x (n + 1)) (i / 2 ^ (n + 1))

/-- Row `b` of the input as a sequence of components (0 beyond the tenth). -/
def comp (a : Fin 131072 → Fin 10 → EReal) (b : Fin 131072) (r : ℕ) : EReal :=
  if h : r < 10 then a b ⟨r, h⟩ else 0

/-- A state's probability from the sum of its weights over the rows: the sum, started from the float zero, over the row count. -/
def mean (S : EReal) : EReal := Ideal.div (zero + S) count

/-- A state's term of the entropy: p · (log (max ε p) / log 2). -/
def cell (p : EReal) : EReal := p * Ideal.div (Ideal.log (max floorP p)) ln2

/-- The result computed over all 1024 states at once, numbered lowest-bit-newest. -/
def refTotal (a : Fin 131072 → Fin 10 → EReal) : EReal :=
  - -(zero + ∑ s : Fin 1024, cell (mean (∑ b : Fin 131072, prodLo (comp a b) 9 s.val)))

/-- Row `l` of tile `k` of half `c`. -/
def rowOf (c : Fin 2) (k : Fin 8) (l : Fin 8192) : Fin 131072 :=
  ⟨(c.val * 8 + k.val) * 8192 + l.val, by have := c.isLt; have := k.isLt; have := l.isLt; omega⟩

/-- One tile's contribution to the pair (i, j) of a state of components 0–4 and a state of components 5–9. -/
def tileDot (a : Fin 131072 → Fin 10 → EReal) (c : Fin 2) (k : Fin 8) (i j : Fin 32) : EReal :=
  ∑ l : Fin 8192, prodHi (comp a (rowOf c k l)) 4 i.val * prodHi (fun r => comp a (rowOf c k l) (5 + r)) 4 j.val

/-- The probability of the pair (i, j): each half's eight tiles summed from the float zero, the two halves summed. -/
def pairMean (a : Fin 131072 → Fin 10 → EReal) (i j : Fin 32) : EReal :=
  mean (∑ c : Fin 2, (zero + ∑ k : Fin 8, tileDot a c k i j))

/-- The result computed over the 32 × 32 pairs. -/
def pairTotal (a : Fin 131072 → Fin 10 → EReal) : EReal :=
  - -(zero + ∑ i : Fin 32, ∑ j : Fin 32, cell (pairMean a i j))

end Cert.Entropy

end
-- ==== Proof.LibRowsDot.lean ====
/-
  A product of a matrix with the transpose of another, A · Bᵀ ("bi,hi->bh": both operands contracted on their last
  axis), as a kernel's `tpu.matmul` into the zero accumulator, read at the extended reals at an index given by
  coordinates: entry (p, q) is the sum over k of A(p, k) · B(q, k). Stated for arbitrary extents and operand formats,
  over the library's dimension numbers `DotDims.transposedRhs M K N`.
-/
import Idealize.ShloMosaic.Lib.ValueIdx
import Idealize.ShloMosaic.PureOps.Ideal.Laws

namespace Cert.Lib.RowsDot

open Idealize.ShloMosaic Idealize.ShloMosaic.ValueIdx

variable {M K N : ℕ} {φ₁ φ₂ : FTy}

/-- The left operand's row is the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The right operand's row is the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- Entry (p, q) of A · Bᵀ accumulated into zero is the sum over k of A(p, k) · B(q, k). -/
theorem matmul_zero_apply (A : FVec Ideal ⟨2, ![M, K]⟩ φ₁) (B : FVec Ideal ⟨2, ![N, K]⟩ φ₂) (p : Fin M) (q : Fin N) :
    matmul (DotDims.transposedRhs M K N) none A B (constant ⟨2, ![M, N]⟩ .f32 0x00000000#32) (ix2 p q)
      = ∑ k : Fin K, A (ix2 p k) * B (ix2 q k) := by
  simp only [matmul]
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k := funext fun a => Fin.ext (by
    match a with
    | ⟨0, _⟩ => exact lhs_row _ _
    | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k := funext fun a => Fin.ext (by
    match a with
    | ⟨0, _⟩ => exact rhs_row _ _
    | ⟨1, _⟩ => exact ((DotDims.transposedRhs M K N).rhsIdx_val_of_single rfl _ _).trans hk)
  rw [el, er]

end Cert.Lib.RowsDot
-- ==== Proof.LibVecIx2.lean ====
/-
  Vector layout operations of a kernel body read at a rank-2 index built from its two coordinates: a block of a
  matrix (one column, one row, one entry), a column or a row broadcast over a matrix, an entry extracted as a scalar,
  a sum over the rows of a matrix, and a one-row matrix made from a vector. Each is stated in closed form (no side
  condition), so that a rewriting pass can push an index through a long chain of such operations.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.VecIx2

open Idealize.ShloMosaic Idealize.ShloMosaic.ValueIdx

variable {α : Type}

theorem slices_lt0 {a b m n o0 o1 : ℕ} (h : (⟨2, ![a, b]⟩ : Shape).Slices ![o0, o1] ⟨2, ![m, n]⟩) (hm : 0 < m) : o0 < a := by
  obtain ⟨_, h2⟩ := h
  have := h2 (0 : Fin 2)
  have e : (![o0, o1] : Fin 2 → ℕ) 0 + m ≤ a := this
  have e' : o0 + m ≤ a := e
  omega

theorem slices_lt1 {a b m n o0 o1 : ℕ} (h : (⟨2, ![a, b]⟩ : Shape).Slices ![o0, o1] ⟨2, ![m, n]⟩) (hn : 0 < n) : o1 < b := by
  obtain ⟨_, h2⟩ := h
  have := h2 (1 : Fin 2)
  have e : (![o0, o1] : Fin 2 → ℕ) 1 + n ≤ b := this
  have e' : o1 + n ≤ b := e
  omega

/-- Column `o` of a matrix, as an [a, 1] block: entry (p, ·) is the matrix at (p, o). -/
theorem slice_col {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, slices_lt1 h Nat.one_pos⟩) :=
  extractStridedSlice_apply _ _ _ _ _ (fun ax => by
    match ax with
    | ⟨0, _⟩ => exact (Nat.zero_add _).symm
    | ⟨1, _⟩ => show o = o + u.val; omega)

/-- Row `o` of a matrix, as a [1, b] block: entry (·, q) is the matrix at (o, q). -/
theorem slice_row {a b : ℕ} (o : ℕ) (X : (⟨2, ![a, b]⟩ : Shape).Idx → α)
    (h : (⟨2, ![a, b]⟩ : Shape).Slices ![o, 0] ⟨2, ![1, b]⟩) (u : Fin 1) (q : Fin b) :
    extractStridedSlice ⟨2, ![1, b]⟩ ![o, 0] X h (ix2 u q) = X (ix2 ⟨o, slices_lt0 h Nat.one_pos⟩ q) :=
  extractStridedSlice_apply _ _ _ _ _ (fun ax => by
    match ax with
    | ⟨0, _⟩ => show o = o + u.val; omega
    | ⟨1, _⟩ => exact (Nat.zero_add _).symm)

/-- Entry (o0, o1) of a matrix, as a [1, 1] block. -/
theorem slice_11 {a b : ℕ} (o0 o1 : ℕ) (X : (⟨2, ![a, b]⟩ : Shape).Idx → α)
    (h : (⟨2, ![a, b]⟩ : Shape).Slices ![o0, o1] ⟨2, ![1, 1]⟩) (u v : Fin 1) :
    extractStridedSlice ⟨2, ![1, 1]⟩ ![o0, o1] X h (ix2 u v)
      = X (ix2 ⟨o0, slices_lt0 h Nat.one_pos⟩ ⟨o1, slices_lt1 h Nat.one_pos⟩) :=
  extractStridedSlice_apply _ _ _ _ _ (fun ax => by
    match ax with
    | ⟨0, _⟩ => show o0 = o0 + u.val; omega
    | ⟨1, _⟩ => show o1 = o1 + v.val; omega)

/-- The one entry of a [1, 1] matrix extracted as a scalar. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- An [a, 1] column broadcast over [a, b]: entry (p, q) is the column at p. -/
theorem bcast_col {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A sum over the rows of an [a, b] matrix of extended reals, from a zero accumulator: entry q is the column's sum. -/
theorem reduce_rows {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum, with the accumulator's neutrality stated on the words themselves (as a printed program states it). -/
theorem reduce_rows' {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) :=
  reduce_rows src h hφ hacc q

end Cert.Lib.VecIx2

end
-- ==== Proof.PayValue.lean ====
/-
  The arithmetic of the joint-entropy kernel's body, read entry by entry at the extended reals.

  The body takes a [10, 8192] block of the input: component r in row r, one input row per lane l. It builds two
  [32, 8192] matrices by DOUBLING along the rows. The first starts from the two rows [1 - x₀, x₀]; step r = 1 … 4
  stacks `old * (1 - x_r)` on top of `old * x_r`, the row x_r broadcast down the rows of `old`. With 2^r rows in
  `old`, row i of the result is row i % 2^r of `old` times the side i / 2^r of x_r: the recursion of `prodHi`, the newest
  component's bin in the highest bit. So row i, lane l of the first matrix is the weight of state i of components 0–4,
  and likewise row j, lane l of the second is the weight of state j of components 5–9. The body then contracts the two
  matrices over the lanes into a zero accumulator and adds the running accumulator: entry (i, j) gains the sum over the
  lanes of the product of the two weights.
-/
import proofs.«142535_j57071525430111_2_alg».proof.Proof.Spec
import proofs.«142535_j57071525430111_2_alg».proof.Proof.Gen.KernelIdeal.Skeleton
import proofs.«142535_j57071525430111_2_alg».proof.Proof.LibRowsDot
import proofs.«142535_j57071525430111_2_alg».proof.Proof.LibVecIx2
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx Cert.Entropy
open scoped BigOperators

namespace Cert.Entropy.Pay

open Cert.KernelIdeal Cert.KernelIdeal.Gen

/-- The constant-zero accumulator, read at an entry. -/
theorem zero_apply (i j : Fin 32) : k0_pay3 (F := Ideal) (ix2 i j) = zero := by
  unfold k0_pay3
  rw [shapeCast_self]
  rfl

/-- A [32, 32] matrix given a leading unit axis reads the same entries. -/
theorem out_apply (v : Vec Ideal S32x32 .f32) (i j : Fin 32) : k0_pay2 (F := Ideal) v (ix3 0 i j) = v (ix2 i j) := by
  unfold k0_pay2
  exact shapeCast_ab_1ab_apply v _ 0 i j

/-- One doubling step read at an entry. The new matrix stacks `old * (c - x)` on top of `old * x`, the row `x`
    broadcast down the rows: a row of the upper half is the same row of `old` times `c - x`, a row of the lower half
    is the row of `old` that many rows higher times `x`. -/
theorem step_apply {a b : ℕ} (hab : b = a + a) (old : FVec Ideal ⟨2, ![a, 8192]⟩ .f32) (xr : FVec Ideal ⟨2, ![1, 8192]⟩ .f32)
    (c : Ideal .f32)
    (hb : (⟨2, ![1, 8192]⟩ : Shape).Broadcasts ⟨2, ![a, 8192]⟩)
    (hc : Shape.Concatenates [(⟨2, ![a, 8192]⟩ : Shape), ⟨2, ![a, 8192]⟩] ⟨2, ![b, 8192]⟩ 0)
    (i : Fin b) (l : Fin 8192) :
    concatenate ⟨2, ![b, 8192]⟩ 0
      [⟨⟨2, ![a, 8192]⟩, mulf old (broadcastTo ⟨2, ![a, 8192]⟩ (subf (broadcast ⟨2, ![1, 8192]⟩ c) xr) hb)⟩,
       ⟨⟨2, ![a, 8192]⟩, mulf old (broadcastTo ⟨2, ![a, 8192]⟩ xr hb)⟩] hc (ix2 i l)
      = if h : i.val < a then old (ix2 ⟨i.val, h⟩ l) * (c - xr (ix2 0 l))
        else old (ix2 ⟨i.val - a, by have := i.isLt; omega⟩ l) * xr (ix2 0 l) := by
  split
  · next h =>
    refine (concatenate_pair_apply_left (t := ⟨2, ![b, 8192]⟩) (s₁ := ⟨2, ![a, 8192]⟩) (s₂ := ⟨2, ![a, 8192]⟩)
      (0 : Fin 2) _ _ hc (ix2 i l) rfl (ix2 ⟨i.val, h⟩ l) (fun ax => ?_)).trans ?_
    · match ax with
      | ⟨0, _⟩ => rfl
      | ⟨1, _⟩ => rfl
    · rw [mulf_apply, broadcastTo_1b_ab_apply, subf_apply, broadcast_apply]
  · next h =>
    refine (concatenate_pair_apply_right (t := ⟨2, ![b, 8192]⟩) (s₁ := ⟨2, ![a, 8192]⟩) (s₂ := ⟨2, ![a, 8192]⟩)
      (0 : Fin 2) _ _ hc (ix2 i l) rfl rfl (ix2 ⟨i.val - a, by have := i.isLt; omega⟩ l) (fun ax hax => ?_) ?_).trans ?_
    · match ax with
      | ⟨0, _⟩ => exact absurd rfl hax
      | ⟨1, _⟩ => rfl
    · show i.val - a + a = i.val
      omega
    · rw [mulf_apply, broadcastTo_1b_ab_apply]

/-- The float literal 1 of the kernel is the specification's `one`. -/
theorem scalar_one : (Scalar.ofBits (F := Ideal) .f32 0x3F800000#32) = one := rfl

/-- The first two rows of a doubling: `[1 - x₀, x₀]` stacked, read at an entry, is the weight of a state of one component. -/
theorem base_apply (xr : FVec Ideal ⟨2, ![1, 8192]⟩ .f32) (y : ℕ → EReal) (l : Fin 8192)
    (hxr : xr (ix2 0 l) = y 0)
    (hc : Shape.Concatenates [(⟨2, ![1, 8192]⟩ : Shape), ⟨2, ![1, 8192]⟩] ⟨2, ![2, 8192]⟩ 0) (i : Fin 2) :
    concatenate ⟨2, ![2, 8192]⟩ 0
      [⟨⟨2, ![1, 8192]⟩, subf (broadcast ⟨2, ![1, 8192]⟩ (Scalar.ofBits (F := Ideal) .f32 0x3F800000#32)) xr⟩,
       ⟨⟨2, ![1, 8192]⟩, xr⟩] hc (ix2 i l) = prodHi y 0 i.val := by
  match i with
  | ⟨0, _⟩ =>
    refine (concatenate_pair_apply_left (t := ⟨2, ![2, 8192]⟩) (s₁ := ⟨2, ![1, 8192]⟩) (s₂ := ⟨2, ![1, 8192]⟩)
      (0 : Fin 2) _ _ hc _ rfl (ix2 0 l) (fun ax => ?_)).trans ?_
    · match ax with
      | ⟨0, _⟩ => rfl
      | ⟨1, _⟩ => rfl
    · rw [subf_apply, broadcast_apply, hxr, scalar_one]
      show one - y 0 = (if (0 : ℕ) = 0 then one - y 0 else y 0)
      rw [if_pos rfl]
  | ⟨1, _⟩ =>
    refine (concatenate_pair_apply_right (t := ⟨2, ![2, 8192]⟩) (s₁ := ⟨2, ![1, 8192]⟩) (s₂ := ⟨2, ![1, 8192]⟩)
      (0 : Fin 2) _ _ hc _ rfl rfl (ix2 0 l) (fun ax hax => ?_) ?_).trans ?_
    · match ax with
      | ⟨0, _⟩ => exact absurd rfl hax
      | ⟨1, _⟩ => rfl
    · rfl
    · rw [hxr]
      show y 0 = (if (1 : ℕ) = 0 then one - y 0 else y 0)
      rw [if_neg Nat.one_ne_zero]

/-- One doubling step carries the weights of the states of components `0 … n` to those of components `0 … n + 1`,
    the new component's bin in the highest bit: rows below `2ⁿ⁺¹` take bin 0, the rows above take bin 1. -/
theorem step_prodHi {a b : ℕ} (n : ℕ) (ha : a = 2 ^ (n + 1)) (hab : b = a + a)
    (old : FVec Ideal ⟨2, ![a, 8192]⟩ .f32) (xr : FVec Ideal ⟨2, ![1, 8192]⟩ .f32) (y : ℕ → EReal) (l : Fin 8192)
    (hold : ∀ i : Fin a, old (ix2 i l) = prodHi y n i.val)
    (hxr : xr (ix2 0 l) = y (n + 1))
    (hb : (⟨2, ![1, 8192]⟩ : Shape).Broadcasts ⟨2, ![a, 8192]⟩)
    (hc : Shape.Concatenates [(⟨2, ![a, 8192]⟩ : Shape), ⟨2, ![a, 8192]⟩] ⟨2, ![b, 8192]⟩ 0)
    (i : Fin b) :
    concatenate ⟨2, ![b, 8192]⟩ 0
      [⟨⟨2, ![a, 8192]⟩, mulf old (broadcastTo ⟨2, ![a, 8192]⟩
          (subf (broadcast ⟨2, ![1, 8192]⟩ (Scalar.ofBits (F := Ideal) .f32 0x3F800000#32)) xr) hb)⟩,
       ⟨⟨2, ![a, 8192]⟩, mulf old (broadcastTo ⟨2, ![a, 8192]⟩ xr hb)⟩] hc (ix2 i l)
      = prodHi y (n + 1) i.val := by
  rw [step_apply hab]
  have hi := i.isLt
  show _ = prodHi y n (i.val % 2 ^ (n + 1)) * side (y (n + 1)) (i.val / 2 ^ (n + 1))
  rw [← ha]
  split
  · next h =>
    rw [hold, hxr, scalar_one, Nat.mod_eq_of_lt h, Nat.div_eq_of_lt h]
    show _ = _ * (if (0 : ℕ) = 0 then one - y (n + 1) else y (n + 1))
    rw [if_pos rfl]
  · next h =>
    have h1 : i.val % a = i.val - a := by
      rw [Nat.mod_eq_sub_mod (Nat.le_of_not_lt h)]
      exact Nat.mod_eq_of_lt (by omega)
    have h2 : i.val / a = 1 := by
      have : 0 < a := by omega
      rw [Nat.div_eq_iff this]
      omega
    rw [hold, hxr, h1, h2]
    show _ = _ * (if (1 : ℕ) = 0 then one - y (n + 1) else y (n + 1))
    rw [if_neg Nat.one_ne_zero]

/-- The input block under its identity shape cast is the block itself. -/
theorem pay4_eq (v3 : Vec Ideal S10x8192 .f32) : k0_pay4 (F := Ideal) v3 = v3 := shapeCast_self _ _

/-- Row `r` of the input block, cut out as a one-row matrix, holds component `r` at lane `l`. -/
theorem row_apply (v3 : Vec Ideal S10x8192 .f32) (x : ℕ → EReal) (l : Fin 8192)
    (hx : ∀ (r : ℕ) (h : r < 10), x r = v3 (ix2 ⟨r, h⟩ l)) (r : ℕ) (hr : r < 10)
    (h : S10x8192.Slices ![r, 0] S1x8192) :
    extractStridedSlice S1x8192 ![r, 0] (k0_pay4 (F := Ideal) v3) h (ix2 0 l) = x r := by
  rw [pay4_eq]
  exact (Cert.Lib.VecIx2.slice_row r v3 h 0 l).trans (hx r hr).symm

/-- The first factor: after four doubling steps from `[1 - x₀, x₀]`, row `i` at lane `l` is the weight of state `i`
    of components 0–4. -/
theorem left_apply (v3 : Vec Ideal S10x8192 .f32) (x : ℕ → EReal) (l : Fin 8192)
    (hx : ∀ (r : ℕ) (h : r < 10), x r = v3 (ix2 ⟨r, h⟩ l)) (i : Fin 32) :
    k0_pay5 (F := Ideal) v3 (ix2 i l) = prodHi x 4 i.val := by
  unfold k0_pay5
  refine step_prodHi (a := 16) (b := 32) 3 rfl rfl _ _ x l (fun i => ?_) ?_ _ _ i
  · refine step_prodHi (a := 8) (b := 16) 2 rfl rfl _ _ x l (fun i => ?_) ?_ _ _ i
    · refine step_prodHi (a := 4) (b := 8) 1 rfl rfl _ _ x l (fun i => ?_) ?_ _ _ i
      · refine step_prodHi (a := 2) (b := 4) 0 rfl rfl _ _ x l (fun i => ?_) ?_ _ _ i
        · exact base_apply _ x l (row_apply v3 x l hx 0 (by norm_num) _) _ i
        · exact row_apply v3 x l hx 1 (by norm_num) _
      · exact row_apply v3 x l hx 2 (by norm_num) _
    · exact row_apply v3 x l hx 3 (by norm_num) _
  · exact row_apply v3 x l hx 4 (by norm_num) _

/-- The kernel's matrix product ("ib,jb->ij": both operands contracted on the lane axis) into the zero accumulator,
    read at an entry: the sum over the lanes of the products. The precision hint plays no part at the extended reals. -/
theorem matmul_apply (prec : Option ContractPrecision) (A B : FVec Ideal S32x8192 .f32) (p q : Fin 32) :
    matmul dot_S32x8192_S32x8192_S32x32_1_1_0_0_n_n prec A B (constant S32x32 .f32 0x00000000#32) (ix2 p q)
      = ∑ k : Fin 8192, A (ix2 p k) * B (ix2 q k) :=
  Cert.Lib.RowsDot.matmul_zero_apply (M := 32) (K := 8192) (N := 32) A B p q

/-- The kernel body's update of the accumulator, read at an entry: the accumulator plus the sum over the lanes of the
    weight of state `i` of components 0–4 times the weight of state `j` of components 5–9. -/
theorem acc_apply (v3 : Vec Ideal S10x8192 .f32) (acc : Vec Ideal S32x32 .f32) (x : Fin 8192 → ℕ → EReal)
    (hx : ∀ (l : Fin 8192) (r : ℕ) (h : r < 10), x l r = v3 (ix2 ⟨r, h⟩ l)) (i j : Fin 32) :
    k0_pay1 (F := Ideal) (k0_pay4 v3) (k0_pay5 v3) (k0_pay6 v3) (k0_pay7 v3) (Scalar.ofBits .f32 0x3F800000#32) acc (ix2 i j)
      = acc (ix2 i j) + ∑ l : Fin 8192, prodHi (x l) 4 i.val * prodHi (fun r => x l (5 + r)) 4 j.val := by
  unfold k0_pay1
  show shapeCast S32x32 (addf acc (matmul dot_S32x8192_S32x8192_S32x32_1_1_0_0_n_n (some .fp32) (k0_pay5 v3) _
    (constant S32x32 .f32 0x00000000#32))) _ (ix2 i j) = _
  rw [shapeCast_self, addf_apply, matmul_apply]
  refine congrArg (acc (ix2 i j) + ·) (Finset.sum_congr rfl fun l _ => ?_)
  rw [left_apply v3 (x l) l (hx l) i]
  refine congrArg (prodHi (x l) 4 i.val * ·) ?_
  refine step_prodHi (a := 16) (b := 32) 3 rfl rfl _ _ (fun r => x l (5 + r)) l (fun j => ?_) ?_ _ _ j
  · refine step_prodHi (a := 8) (b := 16) 2 rfl rfl _ _ (fun r => x l (5 + r)) l (fun j => ?_) ?_ _ _ j
    · refine step_prodHi (a := 4) (b := 8) 1 rfl rfl _ _ (fun r => x l (5 + r)) l (fun j => ?_) ?_ _ _ j
      · refine step_prodHi (a := 2) (b := 4) 0 rfl rfl _ _ (fun r => x l (5 + r)) l (fun j => ?_) ?_ _ _ j
        · unfold k0_pay6
          exact base_apply _ (fun r => x l (5 + r)) l (row_apply v3 (x l) l (hx l) 5 (by norm_num) _) _ j
        · unfold k0_pay7
          exact row_apply v3 (x l) l (hx l) 6 (by norm_num) _
      · exact row_apply v3 (x l) l (hx l) 7 (by norm_num) _
    · exact row_apply v3 (x l) l (hx l) 8 (by norm_num) _
  · exact row_apply v3 (x l) l (hx l) 9 (by norm_num) _

end Cert.Entropy.Pay

end
-- ==== Proof.KerAcc.lean ====
/-
  The accumulator over the extended reals. One update adds to each entry (i, j) the tile's contribution: the sum
  over the tile's 8192 rows of the weight of state i of components 0–4 times the weight of state j of components 5–9.
  So after tile k of a half the entry holds, from the float zero, the contributions of tiles 0 … k of that half.
-/
import proofs.«142535_j57071525430111_2_alg».proof.Proof.Final
import proofs.«142535_j57071525430111_2_alg».proof.Proof.BlockRead
import proofs.«142535_j57071525430111_2_alg».proof.Proof.PayValue
import proofs.«142535_j57071525430111_2_alg».proof.Proof.Spec

noncomputable section

open Idealize.ShloMosaic Idealize.ShloMosaic.TcCoe Idealize.SL.Sem Idealize.ShloMosaic.ValueIdx
open Idealize.ShloMosaic.Pipeline (Dat)
open scoped BigOperators

namespace Cert.KernelIdeal.Body
open Cert.KernelIdeal Cert.KernelIdeal.Gen Cert.Entropy
variable (m : (ℓ : Loc nD τ sig) → Buf (Elt Ideal) ℓ)

/-- The argument array as a function of (row, component). -/
abbrev arg (c : Dev nD) : Fin 131072 → Fin 10 → EReal := fun b r => m ((c : Thread nD τ).loc main_arg0) (ix2 b r)

/-- Row `l` of the block of grid point `n` (for n < 16 no reduction happens: the rows 8192·n + l are below 131072). -/
def rowN (n : ℕ) (l : Fin 8192) : Fin 131072 := ⟨(n * 8192 + l.val) % 131072, Nat.mod_lt _ (by norm_num)⟩

theorem rowN_eq (t : Fin cfg0.N) (l : Fin 8192) : rowN t.val l = ⟨t.val * 8192 + l.val, row_lt t l⟩ :=
  Fin.ext (Nat.mod_eq_of_lt (row_lt t l))

/-- Grid point `n`'s contribution to the pair (i, j): over the point's 8192 rows, the weight of state i of components
    0–4 times the weight of state j of components 5–9. -/
def tile (a : Fin 131072 → Fin 10 → EReal) (n : ℕ) (i j : Fin 32) : EReal :=
  ∑ l : Fin 8192, prodHi (comp a (rowN n l)) 4 i.val * prodHi (fun r => comp a (rowN n l) (5 + r)) 4 j.val

/-- One update of an accumulator `v` at grid point `t`, entry by entry. -/
theorem step_apply (c : Dev nD) (t : Fin cfg0.N) (v : Vec Ideal S32x32 .f32) (i j : Fin 32) :
    step (iblk m c 0 t) v (ix2 i j) = v (ix2 i j) + tile (arg m c) t.val i j :=
  Pay.acc_apply (iblk m c 0 t) v (fun l => comp (arg m c) (rowN t.val l))
    (fun l r h => by
      show comp (arg m c) (rowN t.val l) r = _
      rw [rowN_eq, iblk_apply]
      exact dif_pos h) i j

theorem pt_lt (g k : ℕ) (hg : g < 2) (hk : k < 8) : g * 8 + k < cfg0.N := by have hN : cfg0.N = 16 := N_0; omega

/-- After tile k of half g the accumulator holds, from the float zero, the contributions of the half's tiles 0 … k. -/
theorem acc_sum (c : Dev nD) (g : ℕ) (hg : g < 2) (i j : Fin 32) : ∀ (k : ℕ) (hk : k < 8),
    acc m c (g * 8 + k) (pt_lt g k hg hk) (ix2 i j)
      = zero + ∑ k' ∈ Finset.range (k + 1), tile (arg m c) (g * 8 + k') i j
  | 0, hk => by
    rw [acc_first m c (g * 8 + 0) (pt_lt g 0 hg hk) (by omega)]
    rw [step_apply m c ⟨g * 8 + 0, pt_lt g 0 hg hk⟩, Pay.zero_apply, Finset.sum_range_one]
  | k + 1, hk => by
    have hk' : k < 8 := by omega
    have e : acc m c (g * 8 + (k + 1)) (pt_lt g (k + 1) hg hk)
        = step (iblk m c 0 ⟨g * 8 + k + 1, pt_lt g (k + 1) hg hk⟩) (acc m c (g * 8 + k) (pt_lt g k hg hk')) :=
      acc_next m c (g * 8 + k) (pt_lt g (k + 1) hg hk) (by omega)
    rw [e, step_apply m c ⟨g * 8 + k + 1, pt_lt g (k + 1) hg hk⟩, acc_sum c g hg i j k hk',
      Finset.sum_range_succ _ (k + 1), add_assoc]
    rfl

end Cert.KernelIdeal.Body
end
-- ==== Proof.Tail.lean ====
/-
  After the region the host adds the two halves' slabs, divides by the row count, and sums p · (log (max ε p) / log 2)
  over the 32 × 32 pairs, negating twice. Here that stretch of host operations is named as one function of the region's
  result array and read at its single index.
-/
import proofs.«142535_j57071525430111_2_alg».proof.Proof.Final
import proofs.«142535_j57071525430111_2_alg».proof.Proof.Spec
import Idealize.ShloMosaic.Lib.StableHlo.Run
import Idealize.ShloMosaic.PureOps.Ideal.Laws
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.Body
open Cert.KernelIdeal Cert.KernelIdeal.Gen Cert.Entropy
variable (m : (ℓ : Loc nD τ sig) → Buf (Elt Ideal) ℓ)

/-- The host operations after the region, as one function of the [2, 32, 32] result array `A`: the two slabs summed,
    divided by the row count (the pair probabilities p), then the sum of p · (log (max ε p) / log 2), negated twice. -/
def tailOf (A : (⟨S2x32x32, .f32⟩ : BufTy).Contents (Elt Ideal)) : (⟨S_, .f32⟩ : BufTy).Contents (Elt Ideal) :=
  Host.negf (F := Ideal) (Host.negf (F := Ideal) (Host.reduceAdd (F := Ideal)
    (mulf
      (Host.divf (F := Ideal) (Host.reduceAdd (F := Ideal) A (constant (F := Ideal) S_ .f32 0x00000000#32) reducesTo_S2x32x32_S32x32_d0 h_S_)
        (broadcastInDim S32x32 ![] bcast_S_S32x32 (constant (F := Ideal) S_ .f32 0x48000000#32)))
      (Host.divf (F := Ideal)
        (Host.log (F := Ideal)
          (maximumf (broadcastInDim S32x32 ![] bcast_S_S32x32 (constant (F := Ideal) S_ .f32 0x2B8CBCCC#32))
            (Host.divf (F := Ideal) (Host.reduceAdd (F := Ideal) A (constant (F := Ideal) S_ .f32 0x00000000#32) reducesTo_S2x32x32_S32x32_d0 h_S_)
              (broadcastInDim S32x32 ![] bcast_S_S32x32 (constant (F := Ideal) S_ .f32 0x48000000#32)))))
        (broadcastInDim S32x32 ![] bcast_S_S32x32 (constant (F := Ideal) S_ .f32 0x3F317218#32))))
    (constant (F := Ideal) S_ .f32 0x00000000#32) reducesTo_S32x32_S_d0_1 h_S_))

/-- The program's result buffer after the run is that function of the region's result array. -/
theorem tail_is (c : Dev nD) :
    Pipeline.afterTail₀ cfgs (dats m) 0 (V0 m) [hostOps1, hostOps1_1, hostOps1_2] c main_v12 = tailOf (outG m c) := by
  unfold Pipeline.afterTail₀
  simp only [hostOps1, hostOps1_1, hostOps1_2, List.flatten_cons, List.flatten_nil, List.append_nil, List.cons_append, List.nil_append]
  after_results
  rw [show Pipeline.withArrays (cfgs 0).spec c (V0 m c) (fun w => (dats m 0 c).arrAt w (cfgs 0).N) (Proc.devRef .tc main_v1) = outG m c from
    (Pipeline.withArrays_arr spec0 launch0.win.arr_inj c _ _ 1).trans (final1 m c)]
  rfl

/-- A scalar literal broadcast over the 32 × 32 pairs reads, anywhere, the literal's value. -/
theorem bcast_const (w : BitVec 32) (idx : S32x32.Idx) :
    broadcastInDim S32x32 ![] bcast_S_S32x32 (constant (F := Ideal) S_ .f32 w) idx = Ideal.ofBits .f32 w :=
  broadcastInDim_apply _ bcast_S_S32x32 (constant (F := Ideal) S_ .f32 w) idx ix0 (fun a => a.elim0)

/-- The sum of the two slabs at a pair. -/
theorem slabs_apply (A : (⟨S2x32x32, .f32⟩ : BufTy).Contents (Elt Ideal)) (i j : Fin 32) :
    Host.reduceAdd (F := Ideal) A (constant (F := Ideal) S_ .f32 0x00000000#32) reducesTo_S2x32x32_S32x32_d0 h_S_ (ix2 i j)
      = zero + ∑ g : Fin 2, A (ix3 g i j) := by
  simp only [Host.reduceAdd, Ideal.hostReduceAdd_def]
  rw [Ideal.hostReduceAdd_single reducesTo_S2x32x32_S32x32_d0 (by decide)]
  refine congrArg (_ + ·) (Finset.sum_congr rfl fun k _ => ?_)
  exact congrArg A (funext fun a => Fin.ext (by match a with | ⟨0, _⟩ => rfl | ⟨1, _⟩ => rfl | ⟨2, _⟩ => rfl))

/-- The sum over all pairs. -/
theorem total_apply (X : (⟨S32x32, .f32⟩ : BufTy).Contents (Elt Ideal)) (q : S_.Idx) :
    Host.reduceAdd (F := Ideal) X (constant (F := Ideal) S_ .f32 0x00000000#32) reducesTo_S32x32_S_d0_1 h_S_ q
      = zero + ∑ i : Fin 32, ∑ j : Fin 32, X (ix2 i j) := by
  simp only [Host.reduceAdd, Ideal.hostReduceAdd_def]
  rw [Ideal.hostReduceAdd_total reducesTo_S32x32_S_d0_1 (fun b => b.elim0), sum_idx2]
  rfl

/-- The pointwise host operations read at a pair. -/
theorem mulf_at (x y : FVec Ideal S32x32 .f32) (idx : S32x32.Idx) : mulf x y idx = x idx * y idx := rfl
theorem divf_at (x y : FVec Ideal S32x32 .f32) (idx : S32x32.Idx) :
    Host.divf (F := Ideal) x y idx = Ideal.div (x idx) (y idx) := rfl
theorem log_at (x : FVec Ideal S32x32 .f32) (idx : S32x32.Idx) :
    Host.log (F := Ideal) x idx = Ideal.log (x idx) := rfl
theorem max_at (x y : FVec Ideal S32x32 .f32) (idx : S32x32.Idx) : maximumf x y idx = max (x idx) (y idx) := rfl
theorem negf_at (x : FVec Ideal S_ .f32) (q : S_.Idx) : Host.negf (F := Ideal) x q = -(x q) := rfl

/-- The tail at its one index, in the specification's words. -/
theorem tailOf_apply (A : (⟨S2x32x32, .f32⟩ : BufTy).Contents (Elt Ideal)) (q : S_.Idx) :
    tailOf A q = - -(zero + ∑ i : Fin 32, ∑ j : Fin 32, cell (mean (∑ g : Fin 2, A (ix3 g i j)))) := by
  unfold tailOf
  rw [negf_at, negf_at, total_apply]
  refine congrArg (fun x => - -(zero + x)) (Finset.sum_congr rfl fun i _ => Finset.sum_congr rfl fun j _ => ?_)
  rw [mulf_at, divf_at, divf_at, log_at, max_at, divf_at, slabs_apply, bcast_const, bcast_const, bcast_const]
  rfl

end Cert.KernelIdeal.Body
end
-- ==== Proof.KerValue.lean ====
/-
  The kernel's program as a whole, over the extended reals: the region leaves in slab g of its result array, from
  the float zero, the eight tile contributions of half g; the host operations after it turn the two slabs into the
  specification's total over the 32 × 32 pairs of five-component states.
-/
import proofs.«142535_j57071525430111_2_alg».proof.Proof.KerAcc
import proofs.«142535_j57071525430111_2_alg».proof.Proof.Tail

noncomputable section

open Idealize.ShloMosaic Idealize.ShloMosaic.TcCoe Idealize.SL.Sem Idealize.ShloMosaic.ValueIdx
open Idealize.ShloMosaic.Pipeline (Dat)
open scoped BigOperators

namespace Cert.KernelIdeal.Body
open Cert.KernelIdeal Cert.KernelIdeal.Gen Cert.Entropy
variable (m : (ℓ : Loc nD τ sig) → Buf (Elt Ideal) ℓ) (ρ : Dev nD → PrngReg)

/-- The block of tile `k` of half `g` is the block of grid point 8·g + k. -/
theorem rowN_rowOf (g : Fin 2) (k : Fin 8) (l : Fin 8192) : rowN (g.val * 8 + k.val) l = rowOf g k l :=
  Fin.ext (by
    have := g.isLt; have := k.isLt; have := l.isLt
    show ((g.val * 8 + k.val) * 8192 + l.val) % 131072 = (g.val * 8 + k.val) * 8192 + l.val
    omega)

/-- Slab `g` of the region's result at a pair: from the float zero, the half's eight tile contributions. -/
theorem outG_sum (c : Dev nD) (g : Fin 2) (i j : Fin 32) :
    outG m c (ix3 g i j) = zero + ∑ k : Fin 8, tileDot (arg m c) g k i j := by
  rw [outG_apply]
  refine (acc_sum m c g.val g.isLt i j 7 (by norm_num)).trans ?_
  show zero + ∑ k' ∈ Finset.range 8, tile (arg m c) (g.val * 8 + k') i j = _
  rw [Finset.sum_range]
  refine congrArg (zero + ·) (Finset.sum_congr rfl fun k _ => ?_)
  unfold tile tileDot
  refine Finset.sum_congr rfl fun l _ => ?_
  rw [rowN_rowOf]

/-- The program's result is the specification's total over the 32 × 32 pairs. -/
theorem result_eq (c : Dev nD) :
    Pipeline.afterTail₀ cfgs (dats m) 0 (V0 m) [hostOps1, hostOps1_1, hostOps1_2] c main_v12
      = fun _ => pairTotal (arg m c) := by
  rw [tail_is]
  funext q
  rw [tailOf_apply]
  unfold pairTotal pairMean
  simp only [outG_sum]

/-- The run, read: every weakly fair execution ends with the result at `pairTotal` of the argument, the argument unchanged. -/
theorem run : θ_run defs (onTc (τ := τ) (main (F := Ideal))) ⟨m, fun _ => 0, ρ⟩ fun r => ∀ c : Dev nD,
      r.2.mem ((c.tc : Thread nD τ).loc main_v12) = (fun _ => pairTotal (arg m c))
      ∧ r.2.mem ((c.tc : Thread nD τ).loc main_arg0) = m ((c.tc : Thread nD τ).loc main_arg0) :=
  (θ_run defs _ _).mono (fun _ h c =>
      ⟨((h c).2 main_v12 (Pipeline.mem_restRefs_of main_v12 (by decide) (by decide))).trans (result_eq m c),
        ((h c).2 main_arg0 (Pipeline.mem_restRefs_of main_arg0 (by decide) (by decide))).trans (W_main_arg0 m (dats m) c)⟩)
    (run_main m ρ)

end Cert.KernelIdeal.Body
end
-- ==== Proof.LibPairLayout.lean ====
/-
  Layout operations read at an index, for a kernel that stacks per-pair quantities on a last axis:
  a column [a, 1] laid down as a vector [a]; a matrix [a, b] given a trailing unit axis [a, b, 1]; an array [1, b, c]
  or [1, 1, c] repeated over its leading unit axes up to [a, b, c]; a vector [c] stood up as [1, 1, c]; six arrays
  [a, b, 1] joined along the last axis into [a, b, 6] (entry (p, q, e) is piece e at (p, q, 0)); and two arrays
  [a, b, m] and [a, b, n] joined along the last axis (entry (p, q, e) is the first piece at e for e < m, the second at
  e - m otherwise).  Row-major order throughout.
-/
import Idealize.ShloMosaic.Lib.Pipeline.Value
import Idealize.ShloMosaic.Lib.ValueIdx
import Idealize.ShloMosaic.Lib.ValueLayout

noncomputable section

namespace Cert.Lib.PairLayout

open Idealize.ShloMosaic Idealize.ShloMosaic.ValueIdx

variable {α : Type}

/-- A column [a, 1] laid down as a vector [a]: entry p is the column at (p, 0). -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A matrix [a, b] given a trailing unit axis [a, b, 1]: the entries are the same. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An array [1, b, c] repeated over its leading axis to [a, b, c]: entry (p, q, d) is the operand at (0, q, d). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (d : Fin c) :
    broadcastTo ⟨3, ![a, b, c]⟩ v h (ix3 p q d) = v (ix3 (0 : Fin 1) q d) := by
  refine broadcastTo_apply v h (ix3 p q d) (ix3 (0 : Fin 1) q d) fun ax => ?_
  match ax with
  | ⟨0, _⟩ => rfl
  | ⟨1, _⟩ =>
    show q.val = if b = 1 then 0 else q.val
    split
    · have := q.isLt; omega
    · rfl
  | ⟨2, _⟩ =>
    show d.val = if c = 1 then 0 else d.val
    split
    · have := d.isLt; omega
    · rfl

/-- An array [1, 1, c] repeated over its two leading axes to [a, b, c]: entry (p, q, d) is the operand at (0, 0, d). -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (d : Fin c) :
    broadcastTo ⟨3, ![a, b, c]⟩ v h (ix3 p q d) = v (ix3 (0 : Fin 1) (0 : Fin 1) d) := by
  refine broadcastTo_apply v h (ix3 p q d) (ix3 (0 : Fin 1) (0 : Fin 1) d) fun ax => ?_
  match ax with
  | ⟨0, _⟩ => rfl
  | ⟨1, _⟩ => rfl
  | ⟨2, _⟩ =>
    show d.val = if c = 1 then 0 else d.val
    split
    · have := d.isLt; omega
    · rfl

/-- A vector [c] stood up as [1, 1, c]: entry (u, v, d) is the vector at d. -/
theorem shapeCast_c_11c_apply {c : ℕ} (x : (⟨1, ![c]⟩ : Shape).Idx → α)
    (h : (⟨1, ![c]⟩ : Shape).ShapeCasts ⟨3, ![1, 1, c]⟩) (u v : Fin 1) (d : Fin c) :
    shapeCast ⟨3, ![1, 1, c]⟩ x h (ix3 u v d) = x (ix1 d) :=
  shapeCast_apply x h _ _ (by
    have hu : u.val = 0 := by omega
    have hv : v.val = 0 := by omega
    rw [Shape.rowMajor_val_three, Shape.rowMajor_val_one]
    show d.val = (u.val * 1 + v.val) * c + d.val
    rw [hu, hv]
    simp)

/-- A bias vector [c] stood up as [1, 1, c] and repeated to [a, b, c]: entry (p, q, d) is the bias at d. -/
theorem bias3_apply {a b c : ℕ} (x : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (p : Fin a) (q : Fin b) (d : Fin c) :
    broadcastTo ⟨3, ![a, b, c]⟩ (shapeCast ⟨3, ![1, 1, c]⟩ x h1) h2 (ix3 p q d) = x (ix1 d) := by
  rw [broadcastTo_11c_abc_apply, shapeCast_c_11c_apply]

/-- Two arrays joined along the last axis, read in the first piece: entry (p, q, e) with e < m. -/
theorem concat2_left {a b m n k : ℕ} (x : (⟨3, ![a, b, m]⟩ : Shape).Idx → α) (y : (⟨3, ![a, b, n]⟩ : Shape).Idx → α)
    (h : Shape.Concatenates [(⟨3, ![a, b, m]⟩ : Shape), ⟨3, ![a, b, n]⟩] ⟨3, ![a, b, k]⟩ (2 : Fin 3))
    (p : Fin a) (q : Fin b) (e : Fin k) (e' : Fin m) (he : e'.val = e.val) :
    concatenate ⟨3, ![a, b, k]⟩ (2 : Fin 3) [⟨⟨3, ![a, b, m]⟩, x⟩, ⟨⟨3, ![a, b, n]⟩, y⟩] h (ix3 p q e) = x (ix3 p q e') :=
  concatenate_pair_apply_left (2 : Fin 3) x y h (ix3 p q e) rfl (ix3 p q e') (fun bb => by
    match bb with
    | ⟨0, _⟩ => rfl
    | ⟨1, _⟩ => rfl
    | ⟨2, _⟩ => exact he)

/-- Two arrays joined along the last axis, read in the second piece: entry (p, q, e) with e = m + e'. -/
theorem concat2_right {a b m n k : ℕ} (x : (⟨3, ![a, b, m]⟩ : Shape).Idx → α) (y : (⟨3, ![a, b, n]⟩ : Shape).Idx → α)
    (h : Shape.Concatenates [(⟨3, ![a, b, m]⟩ : Shape), ⟨3, ![a, b, n]⟩] ⟨3, ![a, b, k]⟩ (2 : Fin 3))
    (p : Fin a) (q : Fin b) (e : Fin k) (e' : Fin n) (he : e'.val + m = e.val) :
    concatenate ⟨3, ![a, b, k]⟩ (2 : Fin 3) [⟨⟨3, ![a, b, m]⟩, x⟩, ⟨⟨3, ![a, b, n]⟩, y⟩] h (ix3 p q e) = y (ix3 p q e') :=
  concatenate_pair_apply_right (2 : Fin 3) x y h (ix3 p q e) rfl rfl (ix3 p q e') (fun bb hb => by
    match bb with
    | ⟨0, _⟩ => rfl
    | ⟨1, _⟩ => rfl
    | ⟨2, _⟩ => exact absurd rfl hb) (by exact he)

/-- Six arrays [a, b, 1] joined along the last axis: entry (p, q, e) is piece e at (p, q, 0). -/
theorem concat6_at {a b : ℕ} (x0 x1 x2 x3 x4 x5 : (⟨3, ![a, b, 1]⟩ : Shape).Idx → α)
    (h : Shape.Concatenates [(⟨3, ![a, b, 1]⟩ : Shape), ⟨3, ![a, b, 1]⟩, ⟨3, ![a, b, 1]⟩, ⟨3, ![a, b, 1]⟩,
      ⟨3, ![a, b, 1]⟩, ⟨3, ![a, b, 1]⟩] ⟨3, ![a, b, 6]⟩ (2 : Fin 3))
    (p : Fin a) (q : Fin b) (e : Fin 6) :
    concatenate ⟨3, ![a, b, 6]⟩ (2 : Fin 3) [⟨⟨3, ![a, b, 1]⟩, x0⟩, ⟨⟨3, ![a, b, 1]⟩, x1⟩, ⟨⟨3, ![a, b, 1]⟩, x2⟩,
        ⟨⟨3, ![a, b, 1]⟩, x3⟩, ⟨⟨3, ![a, b, 1]⟩, x4⟩, ⟨⟨3, ![a, b, 1]⟩, x5⟩] h (ix3 p q e)
      = (![x0, x1, x2, x3, x4, x5] : Fin 6 → ((⟨3, ![a, b, 1]⟩ : Shape).Idx → α)) e (ix3 p q (0 : Fin 1)) :=
  concatenate_ofFn_unit_apply (t := ⟨3, ![a, b, 6]⟩) (s₁ := ⟨3, ![a, b, 1]⟩) (2 : Fin 3)
    (![x0, x1, x2, x3, x4, x5] : Fin 6 → ((⟨3, ![a, b, 1]⟩ : Shape).Idx → α)) h rfl rfl (ix3 p q e) e rfl
    (ix3 p q (0 : Fin 1)) (fun bb hb => by
      match bb with
      | ⟨0, _⟩ => rfl
      | ⟨1, _⟩ => rfl
      | ⟨2, _⟩ => exact absurd rfl hb)

end Cert.Lib.PairLayout

end
-- ==== Proof.RefValue.lean ====
/-
  The reference program computes the specification's `refTotal`.

  The program stacks, for every row b and component r, the two weights 1 - x and x on a last axis (entry (b, r, k) is
  `side (x b r) k`). It starts from component 0's two sides and runs nine rounds; round n multiplies the array of the
  2ⁿ joint states of components 0 … n-1 against component n's two sides, entry (b, s / 2) with entry (b, s % 2), and
  lays the products out in row-major order, so that state s of the new array extends state s / 2 by bin s % 2: this is
  `prodLo`'s recursion, and after the ninth round entry (b, s) is `prodLo (comp x b) 9 s`. The tail sums every state
  over the rows from the float zero, divides by the row count (`mean`), multiplies by the base-2 logarithm of the
  clipped mean (`cell`), sums the 1024 terms from the float zero and negates twice.

  Every stage is read at an index built from its coordinates; an index pushed through a reshape is the row-major
  position b · M + s split again, which is linear arithmetic with literal divisors.
-/
import proofs.«142535_j57071525430111_2_alg».proof.Proof.Spec
import proofs.«142535_j57071525430111_2_alg».proof.Proof.Gen.ReferenceIdeal.Read
import proofs.«142535_j57071525430111_2_alg».proof.Proof.LibPairLayout
import Idealize.ShloMosaic.Lib.ValueIdx

noncomputable section
open Idealize.ShloMosaic Idealize.ShloMosaic.ValueIdx Cert.Entropy
open scoped BigOperators

namespace Cert.Entropy.Ref
open Cert.ReferenceIdeal Cert.ReferenceIdeal.Read Cert.ReferenceIdeal.Facts₀

/-- The two sides of every component, stacked on the last axis: entry (b, r, k) is the weight component r of row b gives to bin k. -/
theorem sides_apply (x0 : (⟨S131072x10, .f32⟩ : BufTy).Contents (Elt Ideal)) (b : Fin 131072) (r : Fin 10) (k : Fin 2) :
    val_main_v4 (F := Ideal) x0 (ix3 b r k) = side (x0 (ix2 b r)) k.val := by
  unfold val_main_v4
  generalize hy2 : val_main_v2 (F := Ideal) x0 = y2
  generalize hy3 : val_main_v3 (F := Ideal) x0 = y3
  by_cases hk : k.val = 0
  · have h1 := Cert.Lib.PairLayout.concat2_left (a := 131072) (b := 10) (m := 1) (n := 1) (k := 2) y2 y3
      concatenates_S131072x10x1_S131072x10x1_S131072x10x2_d2 b r k (0 : Fin 1) hk.symm
    refine h1.trans ?_
    subst hy2
    rw [val_main_v2_apply, val_main_v1_apply, val_main_v0_apply, val_main_cst_apply]
    unfold side one
    rw [if_pos hk]
    show Ideal.ofBits .f32 0x3F800000#32 - x0 _ = _
    refine congrArg (fun j => Ideal.ofBits .f32 0x3F800000#32 - x0 j) (funext fun a => Fin.ext ?_)
    match a with
    | ⟨0, _⟩ => rfl
    | ⟨1, _⟩ => rfl
  · have hk1 : (0 : Fin 1).val + 1 = k.val := by have := k.isLt; show 0 + 1 = k.val; omega
    have h1 := Cert.Lib.PairLayout.concat2_right (a := 131072) (b := 10) (m := 1) (n := 1) (k := 2) y2 y3
      concatenates_S131072x10x1_S131072x10x1_S131072x10x2_d2 b r k (0 : Fin 1) hk1
    refine h1.trans ?_
    subst hy3
    rw [val_main_v3_apply]
    unfold side
    rw [if_neg hk]
    refine congrArg x0 (funext fun a => Fin.ext ?_)
    match a with
    | ⟨0, _⟩ => rfl
    | ⟨1, _⟩ => rfl

/-- A component below the tenth is the input's entry. -/
theorem comp_lt (a : Fin 131072 → Fin 10 → EReal) (b : Fin 131072) (r : ℕ) (h : r < 10) : comp a b r = a b ⟨r, h⟩ :=
  dif_pos h

/-- Component 0's two sides as a [131072, 2] array: entry (b, k) is the weight it gives to bin k in row b. -/
theorem sides0_apply (x0 : (⟨S131072x10, .f32⟩ : BufTy).Contents (Elt Ideal)) (b : Fin 131072) (k : Fin 2) :
    val_main_v6 (F := Ideal) x0 (ix2 b k) = side (x0 (ix2 b ⟨0, by decide⟩)) k.val := by
  rw [val_main_v6_apply, val_main_v5_apply]
  refine (congrArg (val_main_v4 (F := Ideal) x0) ?_).trans (sides_apply x0 b ⟨0, by decide⟩ k)
  have hk := k.isLt
  funext a
  refine Fin.ext ?_
  match a with
  | ⟨0, _⟩ => show (b.val * 2 + k.val) / 2 = b.val; omega
  | ⟨1, _⟩ => rfl
  | ⟨2, _⟩ => show (b.val * 2 + k.val) % 2 = k.val; omega

/-- Component 1's two sides as a [131072, 2] array: entry (b, k) is the weight it gives to bin k in row b. -/
theorem sides1_apply (x0 : (⟨S131072x10, .f32⟩ : BufTy).Contents (Elt Ideal)) (b : Fin 131072) (k : Fin 2) :
    val_main_v9 (F := Ideal) x0 (ix2 b k) = side (x0 (ix2 b ⟨1, by decide⟩)) k.val := by
  rw [val_main_v9_apply, val_main_v8_apply]
  refine (congrArg (val_main_v4 (F := Ideal) x0) ?_).trans (sides_apply x0 b ⟨1, by decide⟩ k)
  have hk := k.isLt
  funext a
  refine Fin.ext ?_
  match a with
  | ⟨0, _⟩ => show (b.val * 2 + k.val) / 2 = b.val; omega
  | ⟨1, _⟩ => rfl
  | ⟨2, _⟩ => show (b.val * 2 + k.val) % 2 = k.val; omega

/-- Component 2's two sides as a [131072, 2] array: entry (b, k) is the weight it gives to bin k in row b. -/
theorem sides2_apply (x0 : (⟨S131072x10, .f32⟩ : BufTy).Contents (Elt Ideal)) (b : Fin 131072) (k : Fin 2) :
    val_main_v17 (F := Ideal) x0 (ix2 b k) = side (x0 (ix2 b ⟨2, by decide⟩)) k.val := by
  rw [val_main_v17_apply, val_main_v16_apply]
  refine (congrArg (val_main_v4 (F := Ideal) x0) ?_).trans (sides_apply x0 b ⟨2, by decide⟩ k)
  have hk := k.isLt
  funext a
  refine Fin.ext ?_
  match a with
  | ⟨0, _⟩ => show (b.val * 2 + k.val) / 2 = b.val; omega
  | ⟨1, _⟩ => rfl
  | ⟨2, _⟩ => show (b.val * 2 + k.val) % 2 = k.val; omega

/-- Component 3's two sides as a [131072, 2] array: entry (b, k) is the weight it gives to bin k in row b. -/
theorem sides3_apply (x0 : (⟨S131072x10, .f32⟩ : BufTy).Contents (Elt Ideal)) (b : Fin 131072) (k : Fin 2) :
    val_main_v25 (F := Ideal) x0 (ix2 b k) = side (x0 (ix2 b ⟨3, by decide⟩)) k.val := by
  rw [val_main_v25_apply, val_main_v24_apply]
  refine (congrArg (val_main_v4 (F := Ideal) x0) ?_).trans (sides_apply x0 b ⟨3, by decide⟩ k)
  have hk := k.isLt
  funext a
  refine Fin.ext ?_
  match a with
  | ⟨0, _⟩ => show (b.val * 2 + k.val) / 2 = b.val; omega
  | ⟨1, _⟩ => rfl
  | ⟨2, _⟩ => show (b.val * 2 + k.val) % 2 = k.val; omega

/-- Component 4's two sides as a [131072, 2] array: entry (b, k) is the weight it gives to bin k in row b. -/
theorem sides4_apply (x0 : (⟨S131072x10, .f32⟩ : BufTy).Contents (Elt Ideal)) (b : Fin 131072) (k : Fin 2) :
    val_main_v33 (F := Ideal) x0 (ix2 b k) = side (x0 (ix2 b ⟨4, by decide⟩)) k.val := by
  rw [val_main_v33_apply, val_main_v32_apply]
  refine (congrArg (val_main_v4 (F := Ideal) x0) ?_).trans (sides_apply x0 b ⟨4, by decide⟩ k)
  have hk := k.isLt
  funext a
  refine Fin.ext ?_
  match a with
  | ⟨0, _⟩ => show (b.val * 2 + k.val) / 2 = b.val; omega
  | ⟨1, _⟩ => rfl
  | ⟨2, _⟩ => show (b.val * 2 + k.val) % 2 = k.val; omega

/-- Component 5's two sides as a [131072, 2] array: entry (b, k) is the weight it gives to bin k in row b. -/
theorem sides5_apply (x0 : (⟨S131072x10, .f32⟩ : BufTy).Contents (Elt Ideal)) (b : Fin 131072) (k : Fin 2) :
    val_main_v41 (F := Ideal) x0 (ix2 b k) = side (x0 (ix2 b ⟨5, by decide⟩)) k.val := by
  rw [val_main_v41_apply, val_main_v40_apply]
  refine (congrArg (val_main_v4 (F := Ideal) x0) ?_).trans (sides_apply x0 b ⟨5, by decide⟩ k)
  have hk := k.isLt
  funext a
  refine Fin.ext ?_
  match a with
  | ⟨0, _⟩ => show (b.val * 2 + k.val) / 2 = b.val; omega
  | ⟨1, _⟩ => rfl
  | ⟨2, _⟩ => show (b.val * 2 + k.val) % 2 = k.val; omega

/-- Component 6's two sides as a [131072, 2] array: entry (b, k) is the weight it gives to bin k in row b. -/
theorem sides6_apply (x0 : (⟨S131072x10, .f32⟩ : BufTy).Contents (Elt Ideal)) (b : Fin 131072) (k : Fin 2) :
    val_main_v49 (F := Ideal) x0 (ix2 b k) = side (x0 (ix2 b ⟨6, by decide⟩)) k.val := by
  rw [val_main_v49_apply, val_main_v48_apply]
  refine (congrArg (val_main_v4 (F := Ideal) x0) ?_).trans (sides_apply x0 b ⟨6, by decide⟩ k)
  have hk := k.isLt
  funext a
  refine Fin.ext ?_
  match a with
  | ⟨0, _⟩ => show (b.val * 2 + k.val) / 2 = b.val; omega
  | ⟨1, _⟩ => rfl
  | ⟨2, _⟩ => show (b.val * 2 + k.val) % 2 = k.val; omega

/-- Component 7's two sides as a [131072, 2] array: entry (b, k) is the weight it gives to bin k in row b. -/
theorem sides7_apply (x0 : (⟨S131072x10, .f32⟩ : BufTy).Contents (Elt Ideal)) (b : Fin 131072) (k : Fin 2) :
    val_main_v57 (F := Ideal) x0 (ix2 b k) = side (x0 (ix2 b ⟨7, by decide⟩)) k.val := by
  rw [val_main_v57_apply, val_main_v56_apply]
  refine (congrArg (val_main_v4 (F := Ideal) x0) ?_).trans (sides_apply x0 b ⟨7, by decide⟩ k)
  have hk := k.isLt
  funext a
  refine Fin.ext ?_
  match a with
  | ⟨0, _⟩ => show (b.val * 2 + k.val) / 2 = b.val; omega
  | ⟨1, _⟩ => rfl
  | ⟨2, _⟩ => show (b.val * 2 + k.val) % 2 = k.val; omega

/-- Component 8's two sides as a [131072, 2] array: entry (b, k) is the weight it gives to bin k in row b. -/
theorem sides8_apply (x0 : (⟨S131072x10, .f32⟩ : BufTy).Contents (Elt Ideal)) (b : Fin 131072) (k : Fin 2) :
    val_main_v65 (F := Ideal) x0 (ix2 b k) = side (x0 (ix2 b ⟨8, by decide⟩)) k.val := by
  rw [val_main_v65_apply, val_main_v64_apply]
  refine (congrArg (val_main_v4 (F := Ideal) x0) ?_).trans (sides_apply x0 b ⟨8, by decide⟩ k)
  have hk := k.isLt
  funext a
  refine Fin.ext ?_
  match a with
  | ⟨0, _⟩ => show (b.val * 2 + k.val) / 2 = b.val; omega
  | ⟨1, _⟩ => rfl
  | ⟨2, _⟩ => show (b.val * 2 + k.val) % 2 = k.val; omega

/-- Component 9's two sides as a [131072, 2] array: entry (b, k) is the weight it gives to bin k in row b. -/
theorem sides9_apply (x0 : (⟨S131072x10, .f32⟩ : BufTy).Contents (Elt Ideal)) (b : Fin 131072) (k : Fin 2) :
    val_main_v73 (F := Ideal) x0 (ix2 b k) = side (x0 (ix2 b ⟨9, by decide⟩)) k.val := by
  rw [val_main_v73_apply, val_main_v72_apply]
  refine (congrArg (val_main_v4 (F := Ideal) x0) ?_).trans (sides_apply x0 b ⟨9, by decide⟩ k)
  have hk := k.isLt
  funext a
  refine Fin.ext ?_
  match a with
  | ⟨0, _⟩ => show (b.val * 2 + k.val) / 2 = b.val; omega
  | ⟨1, _⟩ => rfl
  | ⟨2, _⟩ => show (b.val * 2 + k.val) % 2 = k.val; omega

/-- Round 1: the 4 joint states of components 0 … 1 from the 2 of components 0 … 0; state s extends state s / 2 by bin s % 2 of component 1. -/
theorem round1_apply (x0 : (⟨S131072x10, .f32⟩ : BufTy).Contents (Elt Ideal)) (b : Fin 131072) (s : Fin 4) :
    val_main_v14 (F := Ideal) x0 (ix2 b s)
      = val_main_v6 (F := Ideal) x0 (ix2 b (⟨s.val / 2, by have := s.isLt; omega⟩ : Fin 2))
        * val_main_v9 (F := Ideal) x0 (ix2 b (⟨s.val % 2, by omega⟩ : Fin 2)) := by
  rw [val_main_v14_apply, val_main_v13_apply, val_main_v11_apply, val_main_v12_apply, val_main_v7_apply, val_main_v10_apply]
  refine (Ideal.mulf_def _ _).trans ?_
  have hs := s.isLt
  refine congrArg₂ (· * ·) (congrArg (val_main_v6 (F := Ideal) x0) ?_) (congrArg (val_main_v9 (F := Ideal) x0) ?_)
  · funext a
    refine Fin.ext ?_
    match a with
    | ⟨0, _⟩ => show (b.val * 4 + s.val) / 4 = b.val; omega
    | ⟨1, _⟩ => show (b.val * 4 + s.val) / 2 % 2 = s.val / 2; omega
  · funext a
    refine Fin.ext ?_
    match a with
    | ⟨0, _⟩ => show (b.val * 4 + s.val) / 4 = b.val; omega
    | ⟨1, _⟩ => show (b.val * 4 + s.val) % 2 = s.val % 2; omega

/-- Round 2: the 8 joint states of components 0 … 2 from the 4 of components 0 … 1; state s extends state s / 2 by bin s % 2 of component 2. -/
theorem round2_apply (x0 : (⟨S131072x10, .f32⟩ : BufTy).Contents (Elt Ideal)) (b : Fin 131072) (s : Fin 8) :
    val_main_v22 (F := Ideal) x0 (ix2 b s)
      = val_main_v14 (F := Ideal) x0 (ix2 b (⟨s.val / 2, by have := s.isLt; omega⟩ : Fin 4))
        * val_main_v17 (F := Ideal) x0 (ix2 b (⟨s.val % 2, by omega⟩ : Fin 2)) := by
  rw [val_main_v22_apply, val_main_v21_apply, val_main_v19_apply, val_main_v20_apply, val_main_v15_apply, val_main_v18_apply]
  refine (Ideal.mulf_def _ _).trans ?_
  have hs := s.isLt
  refine congrArg₂ (· * ·) (congrArg (val_main_v14 (F := Ideal) x0) ?_) (congrArg (val_main_v17 (F := Ideal) x0) ?_)
  · funext a
    refine Fin.ext ?_
    match a with
    | ⟨0, _⟩ => show (b.val * 8 + s.val) / 8 = b.val; omega
    | ⟨1, _⟩ => show (b.val * 8 + s.val) / 2 % 4 = s.val / 2; omega
  · funext a
    refine Fin.ext ?_
    match a with
    | ⟨0, _⟩ => show (b.val * 8 + s.val) / 8 = b.val; omega
    | ⟨1, _⟩ => show (b.val * 8 + s.val) % 2 = s.val % 2; omega

/-- Round 3: the 16 joint states of components 0 … 3 from the 8 of components 0 … 2; state s extends state s / 2 by bin s % 2 of component 3. -/
theorem round3_apply (x0 : (⟨S131072x10, .f32⟩ : BufTy).Contents (Elt Ideal)) (b : Fin 131072) (s : Fin 16) :
    val_main_v30 (F := Ideal) x0 (ix2 b s)
      = val_main_v22 (F := Ideal) x0 (ix2 b (⟨s.val / 2, by have := s.isLt; omega⟩ : Fin 8))
        * val_main_v25 (F := Ideal) x0 (ix2 b (⟨s.val % 2, by omega⟩ : Fin 2)) := by
  rw [val_main_v30_apply, val_main_v29_apply, val_main_v27_apply, val_main_v28_apply, val_main_v23_apply, val_main_v26_apply]
  refine (Ideal.mulf_def _ _).trans ?_
  have hs := s.isLt
  refine congrArg₂ (· * ·) (congrArg (val_main_v22 (F := Ideal) x0) ?_) (congrArg (val_main_v25 (F := Ideal) x0) ?_)
  · funext a
    refine Fin.ext ?_
    match a with
    | ⟨0, _⟩ => show (b.val * 16 + s.val) / 16 = b.val; omega
    | ⟨1, _⟩ => show (b.val * 16 + s.val) / 2 % 8 = s.val / 2; omega
  · funext a
    refine Fin.ext ?_
    match a with
    | ⟨0, _⟩ => show (b.val * 16 + s.val) / 16 = b.val; omega
    | ⟨1, _⟩ => show (b.val * 16 + s.val) % 2 = s.val % 2; omega

/-- Round 4: the 32 joint states of components 0 … 4 from the 16 of components 0 … 3; state s extends state s / 2 by bin s % 2 of component 4. -/
theorem round4_apply (x0 : (⟨S131072x10, .f32⟩ : BufTy).Contents (Elt Ideal)) (b : Fin 131072) (s : Fin 32) :
    val_main_v38 (F := Ideal) x0 (ix2 b s)
      = val_main_v30 (F := Ideal) x0 (ix2 b (⟨s.val / 2, by have := s.isLt; omega⟩ : Fin 16))
        * val_main_v33 (F := Ideal) x0 (ix2 b (⟨s.val % 2, by omega⟩ : Fin 2)) := by
  rw [val_main_v38_apply, val_main_v37_apply, val_main_v35_apply, val_main_v36_apply, val_main_v31_apply, val_main_v34_apply]
  refine (Ideal.mulf_def _ _).trans ?_
  have hs := s.isLt
  refine congrArg₂ (· * ·) (congrArg (val_main_v30 (F := Ideal) x0) ?_) (congrArg (val_main_v33 (F := Ideal) x0) ?_)
  · funext a
    refine Fin.ext ?_
    match a with
    | ⟨0, _⟩ => show (b.val * 32 + s.val) / 32 = b.val; omega
    | ⟨1, _⟩ => show (b.val * 32 + s.val) / 2 % 16 = s.val / 2; omega
  · funext a
    refine Fin.ext ?_
    match a with
    | ⟨0, _⟩ => show (b.val * 32 + s.val) / 32 = b.val; omega
    | ⟨1, _⟩ => show (b.val * 32 + s.val) % 2 = s.val % 2; omega

/-- Round 5: the 64 joint states of components 0 … 5 from the 32 of components 0 … 4; state s extends state s / 2 by bin s % 2 of component 5. -/
theorem round5_apply (x0 : (⟨S131072x10, .f32⟩ : BufTy).Contents (Elt Ideal)) (b : Fin 131072) (s : Fin 64) :
    val_main_v46 (F := Ideal) x0 (ix2 b s)
      = val_main_v38 (F := Ideal) x0 (ix2 b (⟨s.val / 2, by have := s.isLt; omega⟩ : Fin 32))
        * val_main_v41 (F := Ideal) x0 (ix2 b (⟨s.val % 2, by omega⟩ : Fin 2)) := by
  rw [val_main_v46_apply, val_main_v45_apply, val_main_v43_apply, val_main_v44_apply, val_main_v39_apply, val_main_v42_apply]
  refine (Ideal.mulf_def _ _).trans ?_
  have hs := s.isLt
  refine congrArg₂ (· * ·) (congrArg (val_main_v38 (F := Ideal) x0) ?_) (congrArg (val_main_v41 (F := Ideal) x0) ?_)
  · funext a
    refine Fin.ext ?_
    match a with
    | ⟨0, _⟩ => show (b.val * 64 + s.val) / 64 = b.val; omega
    | ⟨1, _⟩ => show (b.val * 64 + s.val) / 2 % 32 = s.val / 2; omega
  · funext a
    refine Fin.ext ?_
    match a with
    | ⟨0, _⟩ => show (b.val * 64 + s.val) / 64 = b.val; omega
    | ⟨1, _⟩ => show (b.val * 64 + s.val) % 2 = s.val % 2; omega

/-- Round 6: the 128 joint states of components 0 … 6 from the 64 of components 0 … 5; state s extends state s / 2 by bin s % 2 of component 6. -/
theorem round6_apply (x0 : (⟨S131072x10, .f32⟩ : BufTy).Contents (Elt Ideal)) (b : Fin 131072) (s : Fin 128) :
    val_main_v54 (F := Ideal) x0 (ix2 b s)
      = val_main_v46 (F := Ideal) x0 (ix2 b (⟨s.val / 2, by have := s.isLt; omega⟩ : Fin 64))
        * val_main_v49 (F := Ideal) x0 (ix2 b (⟨s.val % 2, by omega⟩ : Fin 2)) := by
  rw [val_main_v54_apply, val_main_v53_apply, val_main_v51_apply, val_main_v52_apply, val_main_v47_apply, val_main_v50_apply]
  refine (Ideal.mulf_def _ _).trans ?_
  have hs := s.isLt
  refine congrArg₂ (· * ·) (congrArg (val_main_v46 (F := Ideal) x0) ?_) (congrArg (val_main_v49 (F := Ideal) x0) ?_)
  · funext a
    refine Fin.ext ?_
    match a with
    | ⟨0, _⟩ => show (b.val * 128 + s.val) / 128 = b.val; omega
    | ⟨1, _⟩ => show (b.val * 128 + s.val) / 2 % 64 = s.val / 2; omega
  · funext a
    refine Fin.ext ?_
    match a with
    | ⟨0, _⟩ => show (b.val * 128 + s.val) / 128 = b.val; omega
    | ⟨1, _⟩ => show (b.val * 128 + s.val) % 2 = s.val % 2; omega

/-- Round 7: the 256 joint states of components 0 … 7 from the 128 of components 0 … 6; state s extends state s / 2 by bin s % 2 of component 7. -/
theorem round7_apply (x0 : (⟨S131072x10, .f32⟩ : BufTy).Contents (Elt Ideal)) (b : Fin 131072) (s : Fin 256) :
    val_main_v62 (F := Ideal) x0 (ix2 b s)
      = val_main_v54 (F := Ideal) x0 (ix2 b (⟨s.val / 2, by have := s.isLt; omega⟩ : Fin 128))
        * val_main_v57 (F := Ideal) x0 (ix2 b (⟨s.val % 2, by omega⟩ : Fin 2)) := by
  rw [val_main_v62_apply, val_main_v61_apply, val_main_v59_apply, val_main_v60_apply, val_main_v55_apply, val_main_v58_apply]
  refine (Ideal.mulf_def _ _).trans ?_
  have hs := s.isLt
  refine congrArg₂ (· * ·) (congrArg (val_main_v54 (F := Ideal) x0) ?_) (congrArg (val_main_v57 (F := Ideal) x0) ?_)
  · funext a
    refine Fin.ext ?_
    match a with
    | ⟨0, _⟩ => show (b.val * 256 + s.val) / 256 = b.val; omega
    | ⟨1, _⟩ => show (b.val * 256 + s.val) / 2 % 128 = s.val / 2; omega
  · funext a
    refine Fin.ext ?_
    match a with
    | ⟨0, _⟩ => show (b.val * 256 + s.val) / 256 = b.val; omega
    | ⟨1, _⟩ => show (b.val * 256 + s.val) % 2 = s.val % 2; omega

/-- Round 8: the 512 joint states of components 0 … 8 from the 256 of components 0 … 7; state s extends state s / 2 by bin s % 2 of component 8. -/
theorem round8_apply (x0 : (⟨S131072x10, .f32⟩ : BufTy).Contents (Elt Ideal)) (b : Fin 131072) (s : Fin 512) :
    val_main_v70 (F := Ideal) x0 (ix2 b s)
      = val_main_v62 (F := Ideal) x0 (ix2 b (⟨s.val / 2, by have := s.isLt; omega⟩ : Fin 256))
        * val_main_v65 (F := Ideal) x0 (ix2 b (⟨s.val % 2, by omega⟩ : Fin 2)) := by
  rw [val_main_v70_apply, val_main_v69_apply, val_main_v67_apply, val_main_v68_apply, val_main_v63_apply, val_main_v66_apply]
  refine (Ideal.mulf_def _ _).trans ?_
  have hs := s.isLt
  refine congrArg₂ (· * ·) (congrArg (val_main_v62 (F := Ideal) x0) ?_) (congrArg (val_main_v65 (F := Ideal) x0) ?_)
  · funext a
    refine Fin.ext ?_
    match a with
    | ⟨0, _⟩ => show (b.val * 512 + s.val) / 512 = b.val; omega
    | ⟨1, _⟩ => show (b.val * 512 + s.val) / 2 % 256 = s.val / 2; omega
  · funext a
    refine Fin.ext ?_
    match a with
    | ⟨0, _⟩ => show (b.val * 512 + s.val) / 512 = b.val; omega
    | ⟨1, _⟩ => show (b.val * 512 + s.val) % 2 = s.val % 2; omega

/-- Round 9: the 1024 joint states of components 0 … 9 from the 512 of components 0 … 8; state s extends state s / 2 by bin s % 2 of component 9. -/
theorem round9_apply (x0 : (⟨S131072x10, .f32⟩ : BufTy).Contents (Elt Ideal)) (b : Fin 131072) (s : Fin 1024) :
    val_main_v78 (F := Ideal) x0 (ix2 b s)
      = val_main_v70 (F := Ideal) x0 (ix2 b (⟨s.val / 2, by have := s.isLt; omega⟩ : Fin 512))
        * val_main_v73 (F := Ideal) x0 (ix2 b (⟨s.val % 2, by omega⟩ : Fin 2)) := by
  rw [val_main_v78_apply, val_main_v77_apply, val_main_v75_apply, val_main_v76_apply, val_main_v71_apply, val_main_v74_apply]
  refine (Ideal.mulf_def _ _).trans ?_
  have hs := s.isLt
  refine congrArg₂ (· * ·) (congrArg (val_main_v70 (F := Ideal) x0) ?_) (congrArg (val_main_v73 (F := Ideal) x0) ?_)
  · funext a
    refine Fin.ext ?_
    match a with
    | ⟨0, _⟩ => show (b.val * 1024 + s.val) / 1024 = b.val; omega
    | ⟨1, _⟩ => show (b.val * 1024 + s.val) / 2 % 512 = s.val / 2; omega
  · funext a
    refine Fin.ext ?_
    match a with
    | ⟨0, _⟩ => show (b.val * 1024 + s.val) / 1024 = b.val; omega
    | ⟨1, _⟩ => show (b.val * 1024 + s.val) % 2 = s.val % 2; omega

/-- Component 0 alone: its two sides are the two joint states. -/
theorem prod0_apply (x0 : (⟨S131072x10, .f32⟩ : BufTy).Contents (Elt Ideal)) (b : Fin 131072) (s : Fin 2) :
    val_main_v6 (F := Ideal) x0 (ix2 b s) = prodLo (comp (fun b r => x0 (ix2 b r)) b) 0 s.val := by
  refine (sides0_apply x0 b s).trans ?_
  show _ = side (comp (fun b r => x0 (ix2 b r)) b 0) s.val
  rw [comp_lt (fun b r => x0 (ix2 b r)) b 0 (by decide)]

/-- After round 1 the array holds the weights of the joint states of components 0 … 1, newest bin lowest. -/
theorem prod1_apply (x0 : (⟨S131072x10, .f32⟩ : BufTy).Contents (Elt Ideal)) (b : Fin 131072) (s : Fin 4) :
    val_main_v14 (F := Ideal) x0 (ix2 b s) = prodLo (comp (fun b r => x0 (ix2 b r)) b) 1 s.val := by
  refine (round1_apply x0 b s).trans ?_
  rw [prod0_apply, sides1_apply]
  show _ = prodLo (comp (fun b r => x0 (ix2 b r)) b) 0 (s.val / 2) * side (comp (fun b r => x0 (ix2 b r)) b 1) (s.val % 2)
  rw [comp_lt (fun b r => x0 (ix2 b r)) b 1 (by decide)]

/-- After round 2 the array holds the weights of the joint states of components 0 … 2, newest bin lowest. -/
theorem prod2_apply (x0 : (⟨S131072x10, .f32⟩ : BufTy).Contents (Elt Ideal)) (b : Fin 131072) (s : Fin 8) :
    val_main_v22 (F := Ideal) x0 (ix2 b s) = prodLo (comp (fun b r => x0 (ix2 b r)) b) 2 s.val := by
  refine (round2_apply x0 b s).trans ?_
  rw [prod1_apply, sides2_apply]
  show _ = prodLo (comp (fun b r => x0 (ix2 b r)) b) 1 (s.val / 2) * side (comp (fun b r => x0 (ix2 b r)) b 2) (s.val % 2)
  rw [comp_lt (fun b r => x0 (ix2 b r)) b 2 (by decide)]

/-- After round 3 the array holds the weights of the joint states of components 0 … 3, newest bin lowest. -/
theorem prod3_apply (x0 : (⟨S131072x10, .f32⟩ : BufTy).Contents (Elt Ideal)) (b : Fin 131072) (s : Fin 16) :
    val_main_v30 (F := Ideal) x0 (ix2 b s) = prodLo (comp (fun b r => x0 (ix2 b r)) b) 3 s.val := by
  refine (round3_apply x0 b s).trans ?_
  rw [prod2_apply, sides3_apply]
  show _ = prodLo (comp (fun b r => x0 (ix2 b r)) b) 2 (s.val / 2) * side (comp (fun b r => x0 (ix2 b r)) b 3) (s.val % 2)
  rw [comp_lt (fun b r => x0 (ix2 b r)) b 3 (by decide)]

/-- After round 4 the array holds the weights of the joint states of components 0 … 4, newest bin lowest. -/
theorem prod4_apply (x0 : (⟨S131072x10, .f32⟩ : BufTy).Contents (Elt Ideal)) (b : Fin 131072) (s : Fin 32) :
    val_main_v38 (F := Ideal) x0 (ix2 b s) = prodLo (comp (fun b r => x0 (ix2 b r)) b) 4 s.val := by
  refine (round4_apply x0 b s).trans ?_
  rw [prod3_apply, sides4_apply]
  show _ = prodLo (comp (fun b r => x0 (ix2 b r)) b) 3 (s.val / 2) * side (comp (fun b r => x0 (ix2 b r)) b 4) (s.val % 2)
  rw [comp_lt (fun b r => x0 (ix2 b r)) b 4 (by decide)]

/-- After round 5 the array holds the weights of the joint states of components 0 … 5, newest bin lowest. -/
theorem prod5_apply (x0 : (⟨S131072x10, .f32⟩ : BufTy).Contents (Elt Ideal)) (b : Fin 131072) (s : Fin 64) :
    val_main_v46 (F := Ideal) x0 (ix2 b s) = prodLo (comp (fun b r => x0 (ix2 b r)) b) 5 s.val := by
  refine (round5_apply x0 b s).trans ?_
  rw [prod4_apply, sides5_apply]
  show _ = prodLo (comp (fun b r => x0 (ix2 b r)) b) 4 (s.val / 2) * side (comp (fun b r => x0 (ix2 b r)) b 5) (s.val % 2)
  rw [comp_lt (fun b r => x0 (ix2 b r)) b 5 (by decide)]

/-- After round 6 the array holds the weights of the joint states of components 0 … 6, newest bin lowest. -/
theorem prod6_apply (x0 : (⟨S131072x10, .f32⟩ : BufTy).Contents (Elt Ideal)) (b : Fin 131072) (s : Fin 128) :
    val_main_v54 (F := Ideal) x0 (ix2 b s) = prodLo (comp (fun b r => x0 (ix2 b r)) b) 6 s.val := by
  refine (round6_apply x0 b s).trans ?_
  rw [prod5_apply, sides6_apply]
  show _ = prodLo (comp (fun b r => x0 (ix2 b r)) b) 5 (s.val / 2) * side (comp (fun b r => x0 (ix2 b r)) b 6) (s.val % 2)
  rw [comp_lt (fun b r => x0 (ix2 b r)) b 6 (by decide)]

/-- After round 7 the array holds the weights of the joint states of components 0 … 7, newest bin lowest. -/
theorem prod7_apply (x0 : (⟨S131072x10, .f32⟩ : BufTy).Contents (Elt Ideal)) (b : Fin 131072) (s : Fin 256) :
    val_main_v62 (F := Ideal) x0 (ix2 b s) = prodLo (comp (fun b r => x0 (ix2 b r)) b) 7 s.val := by
  refine (round7_apply x0 b s).trans ?_
  rw [prod6_apply, sides7_apply]
  show _ = prodLo (comp (fun b r => x0 (ix2 b r)) b) 6 (s.val / 2) * side (comp (fun b r => x0 (ix2 b r)) b 7) (s.val % 2)
  rw [comp_lt (fun b r => x0 (ix2 b r)) b 7 (by decide)]

/-- After round 8 the array holds the weights of the joint states of components 0 … 8, newest bin lowest. -/
theorem prod8_apply (x0 : (⟨S131072x10, .f32⟩ : BufTy).Contents (Elt Ideal)) (b : Fin 131072) (s : Fin 512) :
    val_main_v70 (F := Ideal) x0 (ix2 b s) = prodLo (comp (fun b r => x0 (ix2 b r)) b) 8 s.val := by
  refine (round8_apply x0 b s).trans ?_
  rw [prod7_apply, sides8_apply]
  show _ = prodLo (comp (fun b r => x0 (ix2 b r)) b) 7 (s.val / 2) * side (comp (fun b r => x0 (ix2 b r)) b 8) (s.val % 2)
  rw [comp_lt (fun b r => x0 (ix2 b r)) b 8 (by decide)]

/-- After round 9 the array holds the weights of the joint states of components 0 … 9, newest bin lowest. -/
theorem prod9_apply (x0 : (⟨S131072x10, .f32⟩ : BufTy).Contents (Elt Ideal)) (b : Fin 131072) (s : Fin 1024) :
    val_main_v78 (F := Ideal) x0 (ix2 b s) = prodLo (comp (fun b r => x0 (ix2 b r)) b) 9 s.val := by
  refine (round9_apply x0 b s).trans ?_
  rw [prod8_apply, sides9_apply]
  show _ = prodLo (comp (fun b r => x0 (ix2 b r)) b) 8 (s.val / 2) * side (comp (fun b r => x0 (ix2 b r)) b 9) (s.val % 2)
  rw [comp_lt (fun b r => x0 (ix2 b r)) b 9 (by decide)]

/-- A rank-1 index set is its one coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- A state's probability: the sum of its weights over the rows, from the float zero, over the row count. -/
theorem mean_apply (x0 : (⟨S131072x10, .f32⟩ : BufTy).Contents (Elt Ideal)) (s : Fin 1024) :
    val_main_v81 (F := Ideal) x0 (ix1 s) = mean (∑ b : Fin 131072, prodLo (comp (fun b r => x0 (ix2 b r)) b) 9 s.val) := by
  rw [val_main_v81_apply, val_main_v79_apply, val_main_v80_apply, val_main_cst_1_apply, val_main_cst_0_apply]
  unfold mean zero count
  refine (Ideal.hostDivf_def _ _).trans ?_
  refine congrArg (fun t => Ideal.div (Ideal.ofBits .f32 0x00000000#32 + t) (Ideal.ofBits .f32 0x48000000#32))
    (Finset.sum_congr rfl fun k _ => ?_)
  refine (congrArg (val_main_v78 (F := Ideal) x0) ?_).trans (prod9_apply x0 k s)
  funext a
  refine Fin.ext ?_
  match a with
  | ⟨0, _⟩ => rfl
  | ⟨1, _⟩ => rfl

/-- A state's term of the entropy: its probability times the base-2 logarithm of the probability clipped from below. -/
theorem cell_apply (x0 : (⟨S131072x10, .f32⟩ : BufTy).Contents (Elt Ideal)) (s : Fin 1024) :
    val_main_v86 (F := Ideal) x0 (ix1 s) = cell (mean (∑ b : Fin 131072, prodLo (comp (fun b r => x0 (ix2 b r)) b) 9 s.val)) := by
  rw [val_main_v86_apply, val_main_v85_apply, val_main_v83_apply, val_main_v82_apply, val_main_call0_v1_apply,
    val_main_call0_v0_apply, val_main_cst_2_apply, val_main_v84_apply, val_main_cst_3_apply, mean_apply]
  unfold cell floorP ln2
  simp only [Ideal.mulf_def, Ideal.hostDivf_def, Ideal.hostUnary_log_def, Ideal.maximumf_def, Ideal.ofBits_def]

/-- The reference program's result is the entropy summed over the 1024 joint states numbered newest-bin-lowest. -/
theorem value (x0 : (⟨S131072x10, .f32⟩ : BufTy).Contents (Elt Ideal)) :
    Cert.ReferenceIdeal.Read.val_main_v89 (F := Ideal) x0 = fun _ => refTotal (fun b r => x0 (ix2 b r)) := by
  funext i
  rw [val_main_v89_apply, val_main_v88_apply, val_main_v87_apply, val_main_cst_4_apply]
  unfold refTotal zero
  simp only [Ideal.hostNegf_def, Ideal.negf_def, Ideal.ofBits_def]
  refine congrArg (fun t => - -(Ideal.ofBits .f32 0x00000000#32 + t)) ?_
  refine (sum_idx1 _).trans (Finset.sum_congr rfl fun s _ => ?_)
  exact cell_apply x0 s

end Cert.Entropy.Ref
end
-- ==== Proof.LibTiles.lean ====
/-
  A sum over a range of `n * b` consecutive indices, cut into `n` consecutive tiles of width `b`:
  the index `k * b + j` is the `j`-th element of the `k`-th tile.
-/
import Mathlib.Algebra.BigOperators.Fin
import Mathlib.Logic.Equiv.Fin.Basic
import Mathlib.Data.EReal.Basic

open scoped BigOperators

namespace Cert.Lib.Tiles

/-- The `j`-th element of the `k`-th tile of width `b` lies below `n * b`. -/
theorem tile_lt {n b : ℕ} (k : Fin n) (j : Fin b) : k.val * b + j.val < n * b :=
  calc k.val * b + j.val < k.val * b + b := Nat.add_lt_add_left j.isLt _
    _ = (k.val + 1) * b := (Nat.succ_mul _ _).symm
    _ ≤ n * b := Nat.mul_le_mul_right b k.isLt

/-- A sum over `Fin (n * b)` is the sum over the `n` tiles of the sums over each tile's `b` elements. -/
theorem sum_tiles {M : Type*} [AddCommMonoid M] (n b : ℕ) (f : Fin (n * b) → M) :
    ∑ i : Fin (n * b), f i = ∑ k : Fin n, ∑ j : Fin b, f ⟨k.val * b + j.val, tile_lt k j⟩ := by
  rw [← Equiv.sum_comp finProdFinEquiv f, Fintype.sum_prod_type]
  refine Finset.sum_congr rfl fun k _ => Finset.sum_congr rfl fun j _ => ?_
  refine congrArg f (Fin.ext ?_)
  show j.val + b * k.val = k.val * b + j.val
  rw [Nat.mul_comm, Nat.add_comm]

/-- The inner width 11008 as 43 tiles of width 256. -/
theorem sum_11008 (f : Fin 11008 → EReal) :
    ∑ i : Fin 11008, f i = ∑ k : Fin 43, ∑ j : Fin 256, f ⟨k.val * 256 + j.val, by omega⟩ :=
  sum_tiles 43 256 f

end Cert.Lib.Tiles
-- ==== Proof.Algebra.lean ====
/-
  The two numberings of the joint states agree.

  A joint state of the ten components is a choice of one bin per component. Numbered lowest-bit-newest
  (`prodLo`), component r's bin is bit 9 - r of the state number. A pair (i, j) numbers a state of components
  0–4 and a state of components 5–9 highest-bit-newest (`prodHi`): component r's bin is bit r of i for
  r ≤ 4, and bit r - 5 of j for r ≥ 5. Hence the pair (i, j) is the joint state rev5 i · 32 + rev5 j, where
  rev5 reverses five bits; the map is a bijection of the 32 × 32 pairs onto the 1024 states, because rev5 is
  an involution below 32. The weights agree factor by factor (only associativity of the product is used),
  the rows regroup as 2 halves × 8 tiles × 8192 rows (only commutativity and associativity of the sum), and
  the float zero each half's sum starts from is the extended real 0. Nothing here needs finiteness.
-/
import proofs.«142535_j57071525430111_2_alg».proof.Proof.Spec
import proofs.«142535_j57071525430111_2_alg».proof.Proof.LibTiles

open Idealize.ShloMosaic
open scoped BigOperators

namespace Cert.Entropy

namespace Alg

/-- The float zero is the extended real 0. -/
theorem zero_eq : zero = 0 := by simp [zero, Ideal.ofBits, Ideal.ieee]

/-- Five components, highest-bit-newest, as the explicit product of their sides: component r reads bit r. -/
theorem prodHi_four (x : ℕ → EReal) (i : ℕ) :
    prodHi x 4 i = side (x 0) (i % 2) * side (x 1) (i / 2 % 2) * side (x 2) (i / 4 % 2) * side (x 3) (i / 8 % 2)
      * side (x 4) (i / 16) := by
  simp only [prodHi, Nat.reduceAdd, Nat.reducePow]
  have e0 : i % 16 % 8 % 4 % 2 = i % 2 := by omega
  have e1 : i % 16 % 8 % 4 / 2 = i / 2 % 2 := by omega
  have e2 : i % 16 % 8 / 4 = i / 4 % 2 := by omega
  have e3 : i % 16 / 8 = i / 8 % 2 := by omega
  rw [e0, e1, e2, e3]

/-- Ten components, lowest-bit-newest, as the explicit product of their sides: component r reads bit 9 - r. -/
theorem prodLo_nine (x : ℕ → EReal) (s : ℕ) :
    prodLo x 9 s = side (x 0) (s / 512) * side (x 1) (s / 256 % 2) * side (x 2) (s / 128 % 2) * side (x 3) (s / 64 % 2)
      * side (x 4) (s / 32 % 2) * side (x 5) (s / 16 % 2) * side (x 6) (s / 8 % 2) * side (x 7) (s / 4 % 2)
      * side (x 8) (s / 2 % 2) * side (x 9) (s % 2) := by
  simp only [prodLo, Nat.reduceAdd, Nat.div_div_eq_div_mul, Nat.reduceMul]

/-- Five bits reversed. -/
def rev5 (i : ℕ) : ℕ := (i % 2) * 16 + (i / 2 % 2) * 8 + (i / 4 % 2) * 4 + (i / 8 % 2) * 2 + (i / 16 % 2)

/-- The lowest-bit-newest number of the joint state made of state i of components 0–4 and state j of components 5–9,
    both numbered highest-bit-newest. -/
def sigma (i j : ℕ) : ℕ := rev5 i * 32 + rev5 j

/-- A reversal of five bits is below 32. -/
theorem rev5_lt (i : ℕ) : rev5 i < 32 := by
  have h0 : i % 2 < 2 := Nat.mod_lt _ (by norm_num)
  have h1 : i / 2 % 2 < 2 := Nat.mod_lt _ (by norm_num)
  have h2 : i / 4 % 2 < 2 := Nat.mod_lt _ (by norm_num)
  have h3 : i / 8 % 2 < 2 := Nat.mod_lt _ (by norm_num)
  have h4 : i / 16 % 2 < 2 := Nat.mod_lt _ (by norm_num)
  unfold rev5
  generalize i % 2 = b0 at *
  generalize i / 2 % 2 = b1 at *
  generalize i / 4 % 2 = b2 at *
  generalize i / 8 % 2 = b3 at *
  generalize i / 16 % 2 = b4 at *
  omega

/-- Below 32: the bits of the reversal are the bits in the opposite order, and reversing twice gives the number back. -/
theorem rev5_fin : ∀ i : Fin 32, rev5 i.val / 16 = i.val % 2 ∧ rev5 i.val / 8 % 2 = i.val / 2 % 2
    ∧ rev5 i.val / 4 % 2 = i.val / 4 % 2 ∧ rev5 i.val / 2 % 2 = i.val / 8 % 2 ∧ rev5 i.val % 2 = i.val / 16
    ∧ rev5 (rev5 i.val) = i.val := by
  decide

/-- The number of a pair is below 1024. -/
theorem sigma_lt (i j : ℕ) : sigma i j < 1024 := by
  have := rev5_lt i; have := rev5_lt j; unfold sigma; omega

/-- A ten-bit number whose high five bits are a and low five bits are b, read bit by bit. -/
theorem bits_hi_lo (a b : ℕ) (hb : b < 32) :
    (a * 32 + b) / 512 = a / 16 ∧ (a * 32 + b) / 256 % 2 = a / 8 % 2 ∧ (a * 32 + b) / 128 % 2 = a / 4 % 2
    ∧ (a * 32 + b) / 64 % 2 = a / 2 % 2 ∧ (a * 32 + b) / 32 % 2 = a % 2 ∧ (a * 32 + b) / 16 % 2 = b / 16
    ∧ (a * 32 + b) / 8 % 2 = b / 8 % 2 ∧ (a * 32 + b) / 4 % 2 = b / 4 % 2 ∧ (a * 32 + b) / 2 % 2 = b / 2 % 2
    ∧ (a * 32 + b) % 2 = b % 2 := by
  refine ⟨?_, ?_, ?_, ?_, ?_, ?_, ?_, ?_, ?_, ?_⟩ <;> omega

/-- The weight of the pair (i, j) is the weight of the joint state it numbers: the same ten sides, regrouped. -/
theorem prod_pair (x : ℕ → EReal) (i j : ℕ) (hi : i < 32) (hj : j < 32) :
    prodHi x 4 i * prodHi (fun r => x (5 + r)) 4 j = prodLo x 9 (sigma i j) := by
  obtain ⟨i0, i1, i2, i3, i4, -⟩ := rev5_fin ⟨i, hi⟩
  obtain ⟨j0, j1, j2, j3, j4, -⟩ := rev5_fin ⟨j, hj⟩
  obtain ⟨a0, a1, a2, a3, a4, a5, a6, a7, a8, a9⟩ := bits_hi_lo (rev5 i) (rev5 j) (rev5_lt j)
  simp only at i0 i1 i2 i3 i4 j0 j1 j2 j3 j4
  rw [prodHi_four, prodHi_four, prodLo_nine]
  unfold sigma
  rw [a0, a1, a2, a3, a4, a5, a6, a7, a8, a9, i0, i1, i2, i3, i4, j0, j1, j2, j3, j4]
  simp only [Nat.add_zero, Nat.reduceAdd, mul_assoc]

/-- Reversing five bits twice gives the number back. -/
theorem rev5_rev5 (i : ℕ) (h : i < 32) : rev5 (rev5 i) = i := (rev5_fin ⟨i, h⟩).2.2.2.2.2

/-- The pair numbering is a bijection from the 32 × 32 pairs onto the 1024 joint states. -/
def sigmaEquiv : Fin 32 × Fin 32 ≃ Fin 1024 where
  toFun p := ⟨sigma p.1.val p.2.val, sigma_lt _ _⟩
  invFun s := (⟨rev5 (s.val / 32), rev5_lt _⟩, ⟨rev5 (s.val % 32), rev5_lt _⟩)
  left_inv := by
    rintro ⟨i, j⟩
    have hj := rev5_lt j.val
    refine Prod.ext (Fin.ext ?_) (Fin.ext ?_)
    · show rev5 ((rev5 i.val * 32 + rev5 j.val) / 32) = i.val
      rw [show (rev5 i.val * 32 + rev5 j.val) / 32 = rev5 i.val by omega]
      exact rev5_rev5 _ i.isLt
    · show rev5 ((rev5 i.val * 32 + rev5 j.val) % 32) = j.val
      rw [show (rev5 i.val * 32 + rev5 j.val) % 32 = rev5 j.val by omega]
      exact rev5_rev5 _ j.isLt
  right_inv := by
    intro s
    refine Fin.ext ?_
    show rev5 (rev5 (s.val / 32)) * 32 + rev5 (rev5 (s.val % 32)) = s.val
    have h1 : s.val / 32 < 32 := by have := s.isLt; omega
    have h2 : s.val % 32 < 32 := Nat.mod_lt _ (by norm_num)
    rw [rev5_rev5 _ h1, rev5_rev5 _ h2]
    omega

/-- The 131072 rows as 2 halves of 8 tiles of 8192 rows. -/
theorem sum_rows {M : Type*} [AddCommMonoid M] (g : Fin 131072 → M) :
    ∑ b : Fin 131072, g b = ∑ c : Fin 2, ∑ k : Fin 8, ∑ l : Fin 8192, g (rowOf c k l) := by
  refine (Cert.Lib.Tiles.sum_tiles 16 8192 g).trans ?_
  refine (Cert.Lib.Tiles.sum_tiles 2 8
    (fun t : Fin 16 => ∑ l : Fin 8192, g ⟨t.val * 8192 + l.val, Cert.Lib.Tiles.tile_lt t l⟩)).trans ?_
  exact Finset.sum_congr rfl fun c _ => Finset.sum_congr rfl fun k _ => Finset.sum_congr rfl fun l _ => rfl

/-- The probability of a pair is the probability of the joint state the pair numbers. -/
theorem pairMean_eq (a : Fin 131072 → Fin 10 → EReal) (i j : Fin 32) :
    pairMean a i j = mean (∑ b : Fin 131072, prodLo (comp a b) 9 (sigma i.val j.val)) := by
  unfold pairMean tileDot
  rw [zero_eq]
  simp only [zero_add]
  refine congrArg mean ?_
  refine Eq.trans ?_ (sum_rows (fun b => prodLo (comp a b) 9 (sigma i.val j.val))).symm
  refine Finset.sum_congr rfl fun c _ => Finset.sum_congr rfl fun k _ => Finset.sum_congr rfl fun l _ => ?_
  exact prod_pair _ _ _ i.isLt j.isLt

end Alg

open Alg

/-- The result computed over the 32 × 32 pairs is the result computed over the 1024 joint states. -/
theorem pairTotal_eq_refTotal (a : Fin 131072 → Fin 10 → EReal) : pairTotal a = refTotal a := by
  unfold pairTotal refTotal
  refine congrArg (fun t => - -(zero + t)) ?_
  refine Eq.trans ?_ (Equiv.sum_comp sigmaEquiv
    (fun s : Fin 1024 => cell (mean (∑ b : Fin 131072, prodLo (comp a b) 9 s.val))))
  rw [Fintype.sum_prod_type]
  refine Finset.sum_congr rfl fun i _ => Finset.sum_congr rfl fun j _ => ?_
  exact congrArg cell (pairMean_eq a i j)

end Cert.Entropy
-- ==== Proof.lean ====
/-
  The joint entropy of ten soft binary components over 131072 rows, computed two ways, is one extended real.

  Each row's ten components x₀ … x₉ give every one of the 2¹⁰ joint states a weight: the product, over the components,
  of x (bin 1) or 1 - x (bin 0). A state's probability p is its mean weight over the rows, and the result is the sum over
  the states of p · (log (max ε p) / log 2), negated twice.

  The reference grows each row's 1024 weights one component at a time (the new component's bin in the lowest bit of the
  state's number), sums over the rows, and finishes on a vector of 1024 probabilities.
  The kernel transposes the input, walks a 2 × 8 grid of tiles of 8192 rows (two halves of eight tiles), and for every
  tile builds the 32 weights of components 0–4 and the 32 weights of components 5–9 by doubling along the row axis (the
  new component's bin in the highest bit), multiplies the two [32, 8192] matrices across the tile's rows, and
  accumulates the [32, 32] products over a half's tiles; the host adds the two halves and finishes on a 32 × 32 matrix
  of probabilities.

  The two agree because (i) the pair (i, j) of a five-component state and another is the ten-component state whose
  number has i's bits reversed in its high half and j's bits reversed in its low half — a bijection of the 32 × 32 pairs
  with the 1024 states — and the weights agree by associativity of the product; (ii) the sum over the rows is the sum
  over halves, tiles and rows in a tile, addition on the extended reals being commutative and associative with the float
  zero the real zero. No distributivity or cancellation is used, so the inputs' finiteness is never consulted.

  The modules: Spec (the mathematics, no program), Algebra (i and ii), RefValue (the reference's result is the total over
  states), PayValue (the kernel body's arithmetic at an entry), Pieces / Accum / BlockRead / Final (what the grid leaves in
  the result array, off the generated frame run), Tail (the host operations after the region), KerAcc / KerValue (the
  kernel's result is the total over pairs). The three frames are the generated ones; the idealization rewrote nothing.
-/
import proofs.«142535_j57071525430111_2_alg».proof.Defs
import proofs.«142535_j57071525430111_2_alg».proof.Proof.Gen.Kernel
import proofs.«142535_j57071525430111_2_alg».proof.Proof.Gen.Kernel.Skeleton
import proofs.«142535_j57071525430111_2_alg».proof.Proof.Gen.Kernel.Launch
import proofs.«142535_j57071525430111_2_alg».proof.Proof.Gen.Kernel.Points
import proofs.«142535_j57071525430111_2_alg».proof.Proof.Gen.Kernel.Frame
import proofs.«142535_j57071525430111_2_alg».proof.Proof.Gen.KernelIdeal
import proofs.«142535_j57071525430111_2_alg».proof.Proof.Gen.KernelIdeal.Skeleton
import proofs.«142535_j57071525430111_2_alg».proof.Proof.Gen.KernelIdeal.Launch
import proofs.«142535_j57071525430111_2_alg».proof.Proof.Gen.KernelIdeal.Points
import proofs.«142535_j57071525430111_2_alg».proof.Proof.Gen.KernelIdeal.Frame
import proofs.«142535_j57071525430111_2_alg».proof.Proof.Gen.ReferenceIdeal
import proofs.«142535_j57071525430111_2_alg».proof.Proof.Gen.ReferenceIdeal.Run
import proofs.«142535_j57071525430111_2_alg».proof.Proof.Gen.ReferenceIdeal.Read
import proofs.«142535_j57071525430111_2_alg».proof.Proof.Gen.Pre_finite_inputs
import proofs.«142535_j57071525430111_2_alg».proof.Proof.KerValue
import proofs.«142535_j57071525430111_2_alg».proof.Proof.RefValue
import proofs.«142535_j57071525430111_2_alg».proof.Proof.Algebra
import Idealize.ShloMosaic.Adequacy
import Idealize.ShloMosaic.Init

noncomputable section

namespace Cert.Proof

open Idealize.ShloMosaic Idealize.ShloMosaic.TcCoe Idealize.SL.Sem

/-- The three programs run and leave their argument alone: the kernels' frames are the generated ones, the reference's
    is its generated run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's program ends at the total over the 32 × 32 pairs and the reference at the total
    over the 1024 states of an argument that agrees: one number. -/
theorem algebraic : Cert.algebraic_KernelIdeal_ReferenceIdeal := by
  intro m ρ m' ρ' _ hagree
  refine ⟨fun c => fun _ => Cert.Entropy.pairTotal (Cert.KernelIdeal.Body.arg m c), Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v89_eq, Cert.Entropy.Ref.value, hagree c]
  funext _
  exact (Cert.Entropy.pairTotal_eq_refTotal _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
